-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1x40 : Shape := ⟨3, ![131072, 1, 40]⟩
abbrev S1x131072x256 : Shape := ⟨3, ![1, 131072, 256]⟩
abbrev S128x40 : Shape := ⟨2, ![128, 40]⟩
abbrev S128 : Shape := ⟨1, ![128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S_ : Shape := ⟨0, ![]⟩

class Facts : Prop where
  bcast_S_S131072x1x40 : S_.BroadcastsInDim S131072x1x40 (![] : Fin 0 → Fin S131072x1x40.rank)
  reducesTo_S131072x1x40_S_d0_1_2 : S131072x1x40.ReducesTo [0, 1, 2] S_
  h_S_ : 0 < S_.numel
  bcast_S_S1x131072x256 : S_.BroadcastsInDim S1x131072x256 (![] : Fin 0 → Fin S1x131072x256.rank)
  reducesTo_S1x131072x256_S_d0_1_2 : S1x131072x256.ReducesTo [0, 1, 2] S_
  bcast_S_S128x40 : S_.BroadcastsInDim S128x40 (![] : Fin 0 → Fin S128x40.rank)
  reducesTo_S128x40_S_d0_1 : S128x40.ReducesTo [0, 1] S_
  bcast_S_S128 : S_.BroadcastsInDim S128 (![] : Fin 0 → Fin S128.rank)
  reducesTo_S128_S_d0 : S128.ReducesTo [0] S_
  bcast_S_S768x128 : S_.BroadcastsInDim S768x128 (![] : Fin 0 → Fin S768x128.rank)
  reducesTo_S768x128_S_d0_1 : S768x128.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S768 .f32) (main_arg8 : FVec F S1x256 .f32) (main_arg9 : FVec F S1 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S768x128 .f32) (main_arg5 : FVec F S768x256 .f32) (main_arg6 : FVec F S768 .f32) (main_arg7 : FVec F S768 .f32) (main_arg8 : FVec F S1x256 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S768x128 .f32 := Host.absf main_arg4
  let main_cst_6 : FVec F S_ .f32 := constant S_ .f32 0x7F800000#32
  let main_v20 : FVec F S768x128 .f32 := broadcastInDim S768x128 ![] bcast_S_S768x128 main_cst_6
  let main_v21 : IVec S768x128 1 := cmpf .olt main_v19 main_v20
  let main_c_7 : IVec S_ 1 := constantI S_ 1 1#1
  let main_v22 : IVec S_ 1 := (fun x v => Host.reduce IntOp.andi x v reducesTo_S768x128_S_d0_1 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_v33

def fn {F : FTy → Type} [FloatOps F] (main_arg0 : FVec F S131072x1x40 .f32) (main_arg1 : FVec F S1x131072x256 .f32) (main_arg2 : FVec F S128x40 .f32) (main_arg3 : FVec F S128 .f32) (main_arg4 : FVec F S768x128 .f32) (main_arg5 : FVec F S768x256 .f32) (main_arg6 : FVec F S768 .f32) (main_arg7 : FVec F S768 .f32) (main_arg8 : FVec F S1x256 .f32) (main_arg9 : FVec F S1 .f32) : IVec S_ 1 :=
  let main_v0 : FVec F S131072x1x40 .f32 := Host.absf main_arg0
  let main_cst : FVec F S_ .f32 := constant S_ .f32 0x7F800000#32
  let main_v1 : FVec F S131072x1x40 .f32 := broadcastInDim S131072x1x40 ![] bcast_S_S131072x1x40 main_cst
  let main_v2 : IVec S131072x1x40 1 := cmpf .olt main_v0 main_v1
  let main_c : IVec S_ 1 := constantI S_ 1 1#1
  let main_v3 : IVec S_ 1 := (fun x v => Host.reduce IntOp.andi x v reducesTo_S131072x1x40_S_d0_1_2 h_S_) main_v2 main_c
  let main_v4 : FVec F S1x131072x256 .f32 := Host.absf main_arg1
  let main_cst_0 : FVec F S_ .f32 := constant S_ .f32 0x7F800000#32
  let main_v5 : FVec F S1x131072x256 .f32 := broadcastInDim S1x131072x256 ![] bcast_S_S1x131072x256 main_cst_0
  let main_v6 : IVec S1x131072x256 1 := cmpf .olt main_v4 main_v5
  let main_c_1 : IVec S_ 1 := constantI S_ 1 1#1
  let main_v7 : IVec S_ 1 := (fun x v => Host.reduce IntOp.andi x v reducesTo_S1x131072x256_S_d0_1_2 h_S_) main_v6 main_c_1
  let main_v8 : IVec S_ 1 := andi main_v3 main_v7
  let main_v9 : FVec F S128x40 .f32 := Host.absf main_arg2
  let main_cst_2 : FVec F S_ .f32 := constant S_ .f32 0x7F800000#32
  let main_v10 : FVec F S128x40 .f32 := broadcastInDim S128x40 ![] bcast_S_S128x40 main_cst_2
  let main_v11 : IVec S128x40 1 := cmpf .olt main_v9 main_v10
  let main_c_3 : IVec S_ 1 := constantI S_ 1 1#1
  let main_v12 : IVec S_ 1 := (fun x v => Host.reduce IntOp.andi x v reducesTo_S128x40_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S131072x1x40 : Shape := ⟨3, ![131072, 1, 40]⟩
abbrev S1x131072x256 : Shape := ⟨3, ![1, 131072, 256]⟩
abbrev S128x40 : Shape := ⟨2, ![128, 40]⟩
abbrev S128 : Shape := ⟨1, ![128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S131072x40 : Shape := ⟨2, ![131072, 40]⟩
abbrev S131072x256 : Shape := ⟨2, ![131072, 256]⟩
abbrev S40x128 : Shape := ⟨2, ![40, 128]⟩
abbrev S128x768 : Shape := ⟨2, ![128, 768]⟩
abbrev S40x768 : Shape := ⟨2, ![40, 768]⟩
abbrev S1x128 : Shape := ⟨2, ![1, 128]⟩
abbrev S1x768 : Shape := ⟨2, ![1, 768]⟩
abbrev S256x768 : Shape := ⟨2, ![256, 768]⟩
abbrev S256x1 : Shape := ⟨2, ![256, 1]⟩
abbrev S1x1 : Shape := ⟨2, ![1, 1]⟩
abbrev S131072x1 : Shape := ⟨2, ![131072, 1]⟩
abbrev S2048x40 : Shape := ⟨2, ![2048, 40]⟩
abbrev S2048x256 : Shape := ⟨2, ![2048, 256]⟩
abbrev S2048x1 : Shape := ⟨2, ![2048, 1]⟩
abbrev S2048x768 : Shape := ⟨2, ![2048, 768]⟩
abbrev S2048x512 : Shape := ⟨2, ![2048, 512]⟩
abbrev S131072x1x1 : Shape := ⟨3, ![131072, 1, 1]⟩

abbrev nBuf : Space → Nat
  | .hbm => 32
  | .vmem => 14
  | .smem => 0
  | _ => 0

abbrev bufTy : (tb : Table) → Fin (tcTables nBuf tb) → BufTy
  | .hbm, ⟨0, _⟩ => ⟨S131072x1x40, .f32⟩
  | .hbm, ⟨1, _⟩ => ⟨S1x131072x256, .f32⟩
  | .hbm, ⟨2, _⟩ => ⟨S128x40, .f32⟩
  | .hbm, ⟨3, _⟩ => ⟨S128, .f32⟩
  | .hbm, ⟨4, _⟩ => ⟨S768x128, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S1x256, .f32⟩
  | .hbm, ⟨9, _⟩ => ⟨S1, .f32⟩
  | .hbm, ⟨10, _⟩ => ⟨S131072x40, .f32⟩
  | .hbm, ⟨11, _⟩ => ⟨S131072x256, .f32⟩
  | .hbm, ⟨12, _⟩ => ⟨S40x128, .f32⟩
  | .hbm, ⟨13, _⟩ => ⟨S128x768, .f32⟩
  | .hbm, ⟨14, _⟩ => ⟨S40x768, .f32⟩
  | .hbm, ⟨15, _⟩ => ⟨S1x128, .f32⟩
  | .hbm, ⟨16, _⟩ => ⟨S128x768, .f32⟩
  | .hbm, ⟨17, _⟩ => ⟨S1x768, .f32⟩
  | .hbm, ⟨18, _⟩ => ⟨S768, .f32⟩
  | .hbm, ⟨19, _⟩ => ⟨S768, .f32⟩
  | .hbm, ⟨20, _⟩ => ⟨S40x768, .bf16⟩
  | .hbm, ⟨21, _⟩ => ⟨S1x768, .f32⟩
  | .hbm, ⟨22, _⟩ => ⟨S256x768, .f32⟩
  | .hbm, ⟨23, _⟩ => ⟨S256x768, .bf16⟩
  | .hbm, ⟨24, _⟩ => ⟨S1x768, .f32⟩
  | .hbm, ⟨25, _⟩ => ⟨S256x1, .f32⟩
  | .hbm, ⟨26, _⟩ => ⟨S256x1, .bf16⟩
  | .hbm, ⟨27, _⟩ => ⟨S1x1, .f32⟩
  | .hbm, ⟨28, _⟩ => ⟨S131072x1, .f32⟩
  | .hbm, ⟨29, _⟩ => ⟨S131072x256, .f32⟩
  | .hbm, ⟨30, _⟩ => ⟨S131072x1x1, .f32⟩
  | .hbm, ⟨31, _⟩ => ⟨S1x131072x256, .f32⟩
  | .local _ .vmem, ⟨0, _⟩ => ⟨S2048x40, .f32⟩
  | .local _ .vmem, ⟨1, _⟩ => ⟨S2048x40, .f32⟩
  | .local _ .vmem, ⟨2, _⟩ => ⟨S2048x256, .f32⟩
  | .local _ .vmem, ⟨3, _⟩ => ⟨S2048x256, .f32⟩
  | .local _ .vmem, ⟨4, _⟩ => ⟨S40x768, .bf16⟩
  | .local _ .vmem, ⟨5, _⟩ => ⟨S1x768, .f32⟩
  | .local _ .vmem, ⟨6, _⟩ => ⟨S256x768, .bf16⟩
  | .local _ .vmem, ⟨7, _⟩ => ⟨S1x768, .f32⟩
  | .local _ .vmem, ⟨8, _⟩ => ⟨S256x1, .bf16⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | .local _ .vmem, ⟨12, _⟩ => ⟨S2048x256, .f32⟩
  | .local _ .vmem, ⟨13, _⟩ => ⟨S2048x256, .f32⟩
  | _, _ => ⟨S131072x1x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S131072x1x40_S131072x40 : S131072x1x40.ShapeCasts S131072x40
  shapeCasts_S1x131072x256_S131072x256 : S1x131072x256.ShapeCasts S131072x256
  transposes_S128x40_S40x128_1_0 : S128x40.Transposes [1, 0] S40x128
  transposes_S768x128_S128x768_1_0 : S768x128.Transposes [1, 0] S128x768
  bcast_S128_S1x128_1 : S128.BroadcastsInDim S1x128 (![1] : Fin 1 → Fin S1x128.rank)
  shapeCasts_S1x768_S768 : S1x768.ShapeCasts S768
  bitsLt_bf16_f32 : FTy.bits .bf16 < FTy.bits .f32
  shapeCasts_S768_S1x768 : S768.ShapeCasts S1x768
  transposes_S768x256_S256x768_1_0 : S768x256.Transposes [1, 0] S256x768
  transposes_S1x256_S256x1_1_0 : S1x256.Transposes [1, 0] S256x1
  shapeCasts_S1_S1x1 : S1.ShapeCasts S1x1
  inb_S2048x40_S2048x40_0_0 : ∀ a, (![0, 0] : Fin 2 → Nat) a + S2048x40.size a ≤ S2048x40.size a
  h_S2048x40 : 0 < S2048x40.numel
  shapeCasts_S2048x40_S2048x40 : S2048x40.ShapeCasts S2048x40
  inb_S40x768_S40x768_0_0 : ∀ a, (![0, 0] : Fin 2 → Nat) a + S40x768.size a ≤ S40x768.size a
  h_S40x768 : 0 < S40x768.numel
  shapeCasts_S40x768_S40x768 : S40x768.ShapeCasts S40x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S2048x768_o0_0_S2048x512 : S2048x768.Slices ![0, 0] S2048x512
  slices_S2048x512_o0_0_S2048x256 : S2048x512.Slices ![0, 0] S2048x256
  slices_S2048x512_o0_256_S2048x256 : S2048x512.Slices ![0, 256] S2048x256
  slices_S2048x768_o0_512_S2048x256 : S2048x768.Slices ![0, 512] S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  bcast_S131072x1_S131072x1x1_0_2 : S131072x1.BroadcastsInDim S131072x1x1 (![0, 2] : Fin 2 → Fin S131072x1x1.rank)
  bcast_S131072x256_S1x131072x256_1_2 : S131072x256.BroadcastsInDim S1x131072x256 (![1, 2] : Fin 2 → Fin S1x131072x256.rank)
  dot_S40x128_S128x768_S40x768_1_0_0_1_n_n_wf : DotDims.WF S40x128 S128x768 S40x768 [1] [0] [0] [1] [] []
  dot_S1x128_S128x768_S1x768_1_0_0_1_n_n_wf : DotDims.WF S1x128 S128x768 S1x768 [1] [0] [0] [1] [] []
  dot_S2048x40_S40x768_S2048x768_1_0_0_1_n_n_wf : DotDims.WF S2048x40 S40x768 S2048x768 [1] [0] [0] [1] [] []
  dot_S2048x256_S256x768_S2048x768_1_0_0_1_n_n_wf : DotDims.WF S2048x256 S256x768 S2048x768 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x40.size a ≤ S131072x40.size a
  hwx0_0 : ∀ i : grid0.Coords, EltTy.bits .f32 = 32 ∨ (Rect.block (s := S131072x40) S2048x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x768.size a ≤ S40x768.size a
  hwx0_2 : ∀ i : grid0.Coords, EltTy.bits .bf16 = 32 ∨ (Rect.block (s := S40x768) S40x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .bf16 = 32 ∨ (Rect.block (s := S256x1) S256x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S131072x1.size a
  hwx0_8 : ∀ i : grid0.Coords, EltTy.bits .f32 = 32 ∨ (Rect.block (s := S131072x1) S2048x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S131072x256.size a
  hwx0_9 : ∀ i : grid0.Coords, EltTy.bits .f32 = 32 ∨ (Rect.block (s := S131072x256) S2048x256.size (cc0_transform_9 i) (hinb0_9 i)).WholeWords (EltTy.packing .f32)

variable [Facts₀]

def dot_S40x128_S128x768_S40x768_1_0_0_1_n_n : DotDims S40x128 S128x768 S40x768 where
  lhsContracting := [1]
  rhsContracting := [0]
  lhsNonContracting := [0]
  rhsNonContracting := [1]
  lhsBatch := []
  rhsBatch := []
  wf := dot_S40x128_S128x768_S40x768_1_0_0_1_n_n_wf
def dot_S1x128_S128x768_S1x768_1_0_0_1_n_n : DotDims S1x128 S128x768 S1x768 where
  lhsContracting := [1]
  rhsContracting := [0]
  lhsNonContracting := [0]
  rhsNonContracting := [1]
  lhsBatch := []
  rhsBatch := []
  wf := dot_S1x128_S128x768_S1x768_1_0_0_1_n_n_wf
def dot_S2048x40_S40x768_S2048x768_1_0_0_1_n_n : DotDims S2048x40 S40x768 S2048x768 where
  lhsContracting := [1]
  rhsContracting := [0]
  lhsNonContracting := [0]
  rhsNonContracting := [1]
  lhsBatch := []
  rhsBatch := []
  wf := dot_S2048x40_S40x768_S2048x768_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v0) S2048x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S40x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S2048x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x1x40 : Shape := ⟨3, ![131072, 1, 40]⟩
abbrev S1x131072x256 : Shape := ⟨3, ![1, 131072, 256]⟩
abbrev S128x40 : Shape := ⟨2, ![128, 40]⟩
abbrev S128 : Shape := ⟨1, ![128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S131072x40 : Shape := ⟨2, ![131072, 40]⟩
abbrev S131072x128 : Shape := ⟨2, ![131072, 128]⟩
abbrev S1x128 : Shape := ⟨2, ![1, 128]⟩
abbrev S131072x256 : Shape := ⟨2, ![131072, 256]⟩
abbrev S131072x768 : Shape := ⟨2, ![131072, 768]⟩
abbrev S1x768 : Shape := ⟨2, ![1, 768]⟩
abbrev S_ : Shape := ⟨0, ![]⟩
abbrev S131072x1 : Shape := ⟨2, ![131072, 1]⟩
abbrev S1x1 : Shape := ⟨2, ![1, 1]⟩
abbrev S131072x1x1 : Shape := ⟨3, ![131072, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S131072x1x40, .f32⟩
  | .hbm, ⟨1, _⟩ => ⟨S1x131072x256, .f32⟩
  | .hbm, ⟨2, _⟩ => ⟨S128x40, .f32⟩
  | .hbm, ⟨3, _⟩ => ⟨S128, .f32⟩
  | .hbm, ⟨4, _⟩ => ⟨S768x128, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S1x256, .f32⟩
  | .hbm, ⟨9, _⟩ => ⟨S1, .f32⟩
  | .hbm, ⟨10, _⟩ => ⟨S131072x40, .f32⟩
  | .hbm, ⟨11, _⟩ => ⟨S131072x128, .f32⟩
  | .hbm, ⟨12, _⟩ => ⟨S1x128, .f32⟩
  | .hbm, ⟨13, _⟩ => ⟨S131072x128, .f32⟩
  | .hbm, ⟨14, _⟩ => ⟨S131072x128, .f32⟩
  | .hbm, ⟨15, _⟩ => ⟨S131072x256, .f32⟩
  | .hbm, ⟨16, _⟩ => ⟨S131072x768, .f32⟩
  | .hbm, ⟨17, _⟩ => ⟨S1x768, .f32⟩
  | .hbm, ⟨18, _⟩ => ⟨S131072x768, .f32⟩
  | .hbm, ⟨19, _⟩ => ⟨S131072x768, .f32⟩
  | .hbm, ⟨20, _⟩ => ⟨S131072x768, .f32⟩
  | .hbm, ⟨21, _⟩ => ⟨S1x768, .f32⟩
  | .hbm, ⟨22, _⟩ => ⟨S131072x768, .f32⟩
  | .hbm, ⟨23, _⟩ => ⟨S131072x768, .f32⟩
  | .hbm, ⟨24, _⟩ => ⟨S131072x256, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072x256, .f32⟩
  | .hbm, ⟨35, _⟩ => ⟨S131072x256, .f32⟩
  | .hbm, ⟨36, _⟩ => ⟨S_, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S131072x256, .f32⟩
  | .hbm, ⟨51, _⟩ => ⟨S_, .f32⟩
  | .hbm, ⟨52, _⟩ => ⟨S131072x256, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S131072x1, .f32⟩
  | .hbm, ⟨58, _⟩ => ⟨S1x1, .f32⟩
  | .hbm, ⟨59, _⟩ => ⟨S131072x1, .f32⟩
  | .hbm, ⟨60, _⟩ => ⟨S131072x1, .f32⟩
  | .hbm, ⟨61, _⟩ => ⟨S131072x1x1, .f32⟩
  | .hbm, ⟨62, _⟩ => ⟨S1x131072x256, .f32⟩
  | _, _ => ⟨S131072x1x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  shapeCasts_S131072x1x40_S131072x40 : S131072x1x40.ShapeCasts S131072x40
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S1x131072x256_S131072x256 : S1x131072x256.ShapeCasts S131072x256
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S_S131072x256 : S_.BroadcastsInDim S131072x256 (![] : Fin 0 → Fin S131072x256.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S131072x1_S131072x1x1_0_2 : S131072x1.BroadcastsInDim S131072x1x1 (![0, 2] : Fin 2 → Fin S131072x1x1.rank)
  bcast_S131072x256_S1x131072x256_1_2 : S131072x256.BroadcastsInDim S1x131072x256 (![1, 2] : Fin 2 → Fin S1x131072x256.rank)
  dot_S131072x40_S128x40_S131072x128_1_1_0_0_n_n_wf : DotDims.WF S131072x40 S128x40 S131072x128 [1] [1] [0] [0] [] []
  dot_S131072x128_S768x128_S131072x768_1_1_0_0_n_n_wf : DotDims.WF S131072x128 S768x128 S131072x768 [1] [1] [0] [0] [] []
  dot_S131072x256_S768x256_S131072x768_1_1_0_0_n_n_wf : DotDims.WF S131072x256 S768x256 S131072x768 [1] [1] [0] [0] [] []
  dot_S131072x256_S1x256_S131072x1_1_1_0_0_n_n_wf : DotDims.WF S131072x256 S1x256 S131072x1 [1] [1] [0] [0] [] []

variable [Facts₀]

def dot_S131072x40_S128x40_S131072x128_1_1_0_0_n_n : DotDims S131072x40 S128x40 S131072x128 where
  lhsContracting := [1]
  rhsContracting := [1]
  lhsNonContracting := [0]
  rhsNonContracting := [0]
  lhsBatch := []
  rhsBatch := []
  wf := dot_S131072x40_S128x40_S131072x128_1_1_0_0_n_n_wf
def dot_S131072x128_S768x128_S131072x768_1_1_0_0_n_n : DotDims S131072x128 S768x128 S131072x768 where
  lhsContracting := [1]
  rhsContracting := [1]
  lhsNonContracting := [0]
  rhsNonContracting := [0]
  lhsBatch := []
  rhsBatch := []
  wf := dot_S131072x128_S768x128_S131072x768_1_1_0_0_n_n_wf
def dot_S131072x256_S768x256_S131072x768_1_1_0_0_n_n : DotDims S131072x256 S768x256 S131072x768 where
  lhsContracting := [1]
  rhsContracting := [1]
  lhsNonContracting := [0]
  rhsNonContracting := [0]
  lhsBatch := []
  rhsBatch := []
  wf := dot_S131072x256_S768x256_S131072x768_1_1_0_0_n_n_wf
def dot_S131072x256_S1x256_S131072x1_1_1_0_0_n_n : DotDims S131072x256 S1x256 S131072x1 where
  lhsContracting := [1]
  rhsContracting := [1]
  lhsNonContracting := [0]
  rhsNonContracting := [0]
  lhsBatch := []
  rhsBatch := []
  wf := dot_S131072x256_S1x256_S131072x1_1_1_0_0_n_n_wf

class Facts : Prop extends Facts₀ where

variable [Facts]
-- ==== Proof.GruSpec.lean ====
/-
  One GRU step with an input projection and an output head, row by row, over the extended reals.

  For a batch row `b` the arguments give: the input row `x b · ` (40 entries), the previous hidden row `h b ·`
  (256 entries), the projection `Wp` (128 × 40) with bias `bp`, the gate weights `Wih` (768 × 128) and `Whh`
  (768 × 256) with biases `bih`, `bhh`, and the head `Whd` (1 × 256) with bias `bhd`.

  The input pre-activation of gate column `g` is written two ways:
    * unfolded: project first, `proj b p = Σ_i x b i · Wp p i + bp p`, then `Σ_p proj b p · Wih g p + bih g`;
    * folded:   combine the weights first, `wcomb i g = Σ_p Wp p i · Wih g p` and
                `bcomb g = Σ_p bp p · Wih g p + bih g`, then `Σ_i x b i · wcomb i g + bcomb g`.
  Over real numbers the two agree (distributivity and exchanging the two finite sums); that is proved in
  the algebra module, for arguments all of whose entries are real.

  Everything after the pre-activations is one pointwise function of them (`cell`): with the 768 gate columns
  cut into thirds (reset, update, candidate),
    r = σ(gi_j + gh_j),  z = σ(gi_{256+j} + gh_{256+j}),  n = tanh(gi_{512+j} + r · gh_{512+j}),
    h' = (1 − z) · n + z · h,
  and the head is `Σ_j h'_j · Whd 0 j + bhd 0`.
-/
import Idealize.ShloMosaic.PureOps.Ideal
import Idealize.ShloMosaic.Lib.ValueIdx

noncomputable section

namespace Cert.Gru

open Idealize.ShloMosaic Idealize.ShloMosaic.ValueIdx

/-- The ten argument arrays, each a function on its index type. -/
structure Args where
  x   : (⟨3, ![131072, 1, 40]⟩ : Shape).Idx → EReal
  h   : (⟨3, ![1, 131072, 256]⟩ : Shape).Idx → EReal
  Wp  : (⟨2, ![128, 40]⟩ : Shape).Idx → EReal
  bp  : (⟨1, ![128]⟩ : Shape).Idx → EReal
  Wih : (⟨2, ![768, 128]⟩ : Shape).Idx → EReal
  Whh : (⟨2, ![768, 256]⟩ : Shape).Idx → EReal
  bih : (⟨1, ![768]⟩ : Shape).Idx → EReal
  bhh : (⟨1, ![768]⟩ : Shape).Idx → EReal
  Whd : (⟨2, ![1, 256]⟩ : Shape).Idx → EReal
  bhd : (⟨1, ![1]⟩ : Shape).Idx → EReal

/-- Every entry of every argument is a real number. -/
structure Args.Finite (A : Args) : Prop where
  x   : ∀ i, ∃ r : ℝ, A.x i = (r : EReal)
  h   : ∀ i, ∃ r : ℝ, A.h i = (r : EReal)
  Wp  : ∀ i, ∃ r : ℝ, A.Wp i = (r : EReal)
  bp  : ∀ i, ∃ r : ℝ, A.bp i = (r : EReal)
  Wih : ∀ i, ∃ r : ℝ, A.Wih i = (r : EReal)
  Whh : ∀ i, ∃ r : ℝ, A.Whh i = (r : EReal)
  bih : ∀ i, ∃ r : ℝ, A.bih i = (r : EReal)
  bhh : ∀ i, ∃ r : ℝ, A.bhh i = (r : EReal)
  Whd : ∀ i, ∃ r : ℝ, A.Whd i = (r : EReal)
  bhd : ∀ i, ∃ r : ℝ, A.bhd i = (r : EReal)

/-- The number one as both programs write it: the f32 word of 1.0. -/
abbrev one : EReal := Ideal.ofBits .f32 0x3F800000#32

variable (A : Args)

/-- The projected input of row `b`, column `p`. -/
def proj (b : Fin 131072) (p : Fin 128) : EReal :=
  (∑ i : Fin 40, A.x (ix3 b 0 i) * A.Wp (ix2 p i)) + A.bp (ix1 p)

/-- The input pre-activation, projecting first. -/
def giUnfolded (b : Fin 131072) (g : Fin 768) : EReal :=
  (∑ p : Fin 128, proj A b p * A.Wih (ix2 g p)) + A.bih (ix1 g)

/-- The combined weight `Wpᵀ · Wihᵀ`. -/
def wcomb (i : Fin 40) (g : Fin 768) : EReal := ∑ p : Fin 128, A.Wp (ix2 p i) * A.Wih (ix2 g p)

/-- The combined bias `bp · Wihᵀ + bih`. -/
def bcomb (g : Fin 768) : EReal := (∑ p : Fin 128, A.bp (ix1 p) * A.Wih (ix2 g p)) + A.bih (ix1 g)

/-- The input pre-activation, with the projection folded into the weights. -/
def giFolded (b : Fin 131072) (g : Fin 768) : EReal :=
  (∑ i : Fin 40, A.x (ix3 b 0 i) * wcomb A i g) + bcomb A g

/-- The hidden pre-activation. -/
def gh (b : Fin 131072) (g : Fin 768) : EReal :=
  (∑ k : Fin 256, A.h (ix3 0 b k) * A.Whh (ix2 g k)) + A.bhh (ix1 g)

/-- Gate column `j` of the reset third, of the update third, of the candidate third. -/
abbrev colR (j : Fin 256) : Fin 768 := ⟨j.val, by have := j.isLt; omega⟩
abbrev colZ (j : Fin 256) : Fin 768 := ⟨256 + j.val, by have := j.isLt; omega⟩
abbrev colN (j : Fin 256) : Fin 768 := ⟨512 + j.val, by have := j.isLt; omega⟩

/-- The GRU cell at hidden column `j`, from the two rows of pre-activations and the previous hidden entry. -/
def cell (gi gh : Fin 768 → EReal) (hprev : EReal) (j : Fin 256) : EReal :=
  (one - Ideal.logistic (gi (colZ j) + gh (colZ j)))
      * Ideal.tanh (gi (colN j) + Ideal.logistic (gi (colR j) + gh (colR j)) * gh (colN j))
    + Ideal.logistic (gi (colZ j) + gh (colZ j)) * hprev

/-- The new hidden entry of row `b`, column `j`, for a given input pre-activation. -/
def hnew (gi : Fin 131072 → Fin 768 → EReal) (b : Fin 131072) (j : Fin 256) : EReal :=
  cell (gi b) (gh A b) (A.h (ix3 0 b j)) j

/-- The head's output of row `b`. -/
def pred (gi : Fin 131072 → Fin 768 → EReal) (b : Fin 131072) : EReal :=
  (∑ j : Fin 256, hnew A gi b j * A.Whd (ix2 0 j)) + A.bhd (ix1 0)

end Cert.Gru

end
-- ==== Proof.KerArgs.lean ====
/-
  The ten argument arrays of the idealized kernel program, as one record of the specification: entry by entry
  they are what the launch memory holds at the program's argument buffers on a core.
-/
import proofs.«102828_j89644557402351_2_alg».proof.KernelIdeal
import proofs.«102828_j89644557402351_2_alg».proof.Proof.GruSpec

noncomputable section

namespace Cert.KernelIdeal

open Idealize.ShloMosaic Idealize.SL.Sem

variable [Facts]

/-- The arguments on core `c` of a memory `m` read at the ideal instance. -/
def argsAt (m : (ℓ : Loc nD τ sig) → Buf (Elt Ideal) ℓ) (c : Dev nD) : Cert.Gru.Args where
  x   := m ((c.tc : Thread nD τ).loc main_arg0)
  h   := m ((c.tc : Thread nD τ).loc main_arg1)
  Wp  := m ((c.tc : Thread nD τ).loc main_arg2)
  bp  := m ((c.tc : Thread nD τ).loc main_arg3)
  Wih := m ((c.tc : Thread nD τ).loc main_arg4)
  Whh := m ((c.tc : Thread nD τ).loc main_arg5)
  bih := m ((c.tc : Thread nD τ).loc main_arg6)
  bhh := m ((c.tc : Thread nD τ).loc main_arg7)
  Whd := m ((c.tc : Thread nD τ).loc main_arg8)
  bhd := m ((c.tc : Thread nD τ).loc main_arg9)

end Cert.KernelIdeal

end
-- ==== Proof.FiniteArgs.lean ====
/-
  From the precondition to real entries. The precondition tests, for each of the ten argument arrays, that every entry's
  absolute value is strictly below +∞, and takes the conjunction of the ten tests. Over the extended reals the absolute
  value of `⊥` and of `⊤` is `⊤`, which is not below `⊤`; so an entry that passes the test is the image of a real number.
  Hence, under the precondition, every entry of every argument array is a real number.
-/
import proofs.«102828_j89644557402351_2_alg».proof.Defs
import proofs.«102828_j89644557402351_2_alg».proof.Proof.Gen.Pre_finite_inputs
import proofs.«102828_j89644557402351_2_alg».proof.Proof.KerArgs
import Idealize.ShloMosaic.Lib.ReduceAll
import Idealize.ShloMosaic.Lib.ValueIdx

noncomputable section

namespace Cert.KernelIdeal.FiniteArgs

open Idealize.ShloMosaic Idealize.ShloMosaic.ValueIdx Idealize.SL.Sem
open Cert.Pre_finite_inputs (S_)

/-- The rank-0 shape has exactly one index. -/
instance : Subsingleton S_.Idx := ⟨fun a b => funext fun d => d.elim0⟩

/-- An extended real whose absolute value `max x (-x)` compares below the f32 word of +∞ (which denotes `⊤`) is
    neither `⊥` nor `⊤`: it is a real number. -/
theorem real_of_abs_lt (x : EReal)
    (h : FloatOps.cmpf (F := Ideal) (φ := .f32) .olt (FloatOps.hostAbsf (F := Ideal) (φ := .f32) x)
          (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [FloatOps.cmpf, FloatOps.hostAbsf, Ideal.cmp])
  | coe r => exact ⟨r, rfl⟩
  | top => exact absurd h (by simp [FloatOps.cmpf, FloatOps.hostAbsf, Ideal.cmp])

/-- The test "all entries have `|x i| < +∞`" read back: when the reduction by `and`, over all axes, of the entrywise
    test "`|x i|` is below the broadcast f32 word of +∞" is one, every entry of `x` is a real number. -/
theorem all_real {s : Shape} {axes : List (Fin s.rank)} (hb : S_.BroadcastsInDim s (![] : Fin 0 → Fin s.rank))
    (hr : s.ReducesTo axes S_) (hu : 0 < S_.numel) (x : FVec Ideal s .f32) (init : IVec S_ 1)
    (e : Host.reduce IntOp.andi
          (cmpf .olt (Host.absf x) (broadcastInDim s ![] hb (constant (F := Ideal) S_ .f32 0x7F800000#32))) init hr hu ix0 = 1#1)
    (i : s.Idx) : ∃ r : ℝ, x i = (r : EReal) :=
  real_of_abs_lt (x i) (Host.reduce_andi_all _ init hr hu ix0 e i)

/-- The precondition decoded: it is the conjunction, argument by argument, of the test "all entries have absolute
    value below +∞"; each conjunct gives that every entry of that argument is a real number. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.argsAt m c).Finite := by
  have e := congrFun (h c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨⟨e0, e1⟩, e2⟩, e3⟩, e4⟩, e5⟩, e6⟩, e7⟩, e8⟩, e9⟩ := e
  have f0 := all_real _ _ _ _ _ e0
  have f1 := all_real _ _ _ _ _ e1
  have f2 := all_real _ _ _ _ _ e2
  have f3 := all_real _ _ _ _ _ e3
  have f4 := all_real _ _ _ _ _ e4
  have f5 := all_real _ _ _ _ _ e5
  have f6 := all_real _ _ _ _ _ e6
  have f7 := all_real _ _ _ _ _ e7
  have f8 := all_real _ _ _ _ _ e8
  have f9 := all_real _ _ _ _ _ e9
  exact ⟨f0, f1, f2, f3, f4, f5, f6, f7, f8, f9⟩

end Cert.KernelIdeal.FiniteArgs

end
-- ==== Proof.RefRead.lean ====
/-
  The reference program read at an index.

  Each stage of the reference is one host operation; read at explicit coordinates (b, j) the stages compose to
  the specification's GRU step with the UNFOLDED input projection: first the projected input row
  Σ_i x b i · Wp p i + bp p, then the input pre-activation Σ_p proj b p · Wih g p + bih g, the hidden
  pre-activation Σ_k h b k · Whh g k + bhh g, the three gate columns cut out of the 768, the two sigmoids
  written as 1 / (1 + exp (−s)), the candidate's tanh, the convex combination with the previous hidden entry,
  and the head's dot product with its bias.
-/
import proofs.«102828_j89644557402351_2_alg».proof.Proof.Gen.ReferenceIdeal.Read
import proofs.«102828_j89644557402351_2_alg».proof.Proof.GruSpec

noncomputable section

namespace Cert.ReferenceIdeal.RefRead

open Cert.ReferenceIdeal Cert.ReferenceIdeal.Gen Cert.ReferenceIdeal.Read
open Idealize.ShloMosaic Idealize.ShloMosaic.ValueIdx

variable (x0 : (⟨S131072x1x40, .f32⟩ : BufTy).Contents (Elt Ideal))
  (x1 : (⟨S1x131072x256, .f32⟩ : BufTy).Contents (Elt Ideal))
  (x2 : (⟨S128x40, .f32⟩ : BufTy).Contents (Elt Ideal))
  (x3 : (⟨S128, .f32⟩ : BufTy).Contents (Elt Ideal))
  (x4 : (⟨S768x128, .f32⟩ : BufTy).Contents (Elt Ideal))
  (x5 : (⟨S768x256, .f32⟩ : BufTy).Contents (Elt Ideal))
  (x6 x7 : (⟨S768, .f32⟩ : BufTy).Contents (Elt Ideal))
  (x8 : (⟨S1x256, .f32⟩ : BufTy).Contents (Elt Ideal))
  (x9 : (⟨S1, .f32⟩ : BufTy).Contents (Elt Ideal))

/-! ### The composed index maps at explicit coordinates -/

/-- Flattening (b, 0, i) and (b, i) address the same entry of the input. -/
theorem idx0 (b : Fin 131072) (i : Fin 40) : idx_main_v0 (ix2 b i) = ix3 b 0 i :=
  funext fun a => Fin.ext (by
    have hb := b.isLt; have hi := i.isLt
    match a with
    | ⟨0, _⟩ => show (b.val * 40 + i.val) / 40 = b.val; omega
    | ⟨1, _⟩ => rfl
    | ⟨2, _⟩ => show (b.val * 40 + i.val) % 40 = i.val; omega)

/-- Flattening (0, b, k) and (b, k) address the same entry of the hidden state. -/
theorem idx5 (b : Fin 131072) (k : Fin 256) : idx_main_v5 (ix2 b k) = ix3 0 b k :=
  funext fun a => Fin.ext (by
    have hb := b.isLt; have hk := k.isLt
    match a with
    | ⟨0, _⟩ => rfl
    | ⟨1, _⟩ => show (b.val * 256 + k.val) / 256 % 131072 = b.val; omega
    | ⟨2, _⟩ => show (b.val * 256 + k.val) % 256 = k.val; omega)

theorem lidx1 (b : Fin 131072) (p : Fin 128) (k : Fin 40) : lidx_main_v1 (ix2 b p) k = ix2 b k :=
  funext fun a => Fin.ext (by match a with | ⟨0, _⟩ => rfl | ⟨1, _⟩ => rfl)
theorem ridx1 (b : Fin 131072) (p : Fin 128) (k : Fin 40) : ridx_main_v1 (ix2 b p) k = ix2 p k :=
  funext fun a => Fin.ext (by match a with | ⟨0, _⟩ => rfl | ⟨1, _⟩ => rfl)
theorem idx23 (b : Fin 131072) (p : Fin 128) : idx_main_v2 (idx_main_v3 (ix2 b p)) = ix1 p :=
  funext fun a => Fin.ext (by match a with | ⟨0, _⟩ => rfl)

/-- The ten arguments as one record of the specification. -/
abbrev args : Cert.Gru.Args := ⟨x0, x1, x2, x3, x4, x5, x6, x7, x8, x9⟩

/-! ### The projection and the two pre-activations -/

/-- Stage 4 is the projected input. -/
theorem v4_read (b : Fin 131072) (p : Fin 128) :
    val_main_v4 (F := Ideal) x0 x2 x3 (ix2 b p) = Cert.Gru.proj (args x0 x1 x2 x3 x4 x5 x6 x7 x8 x9) b p := by
  rw [val_main_v4_apply, val_main_v1_apply, val_main_v3_apply, val_main_v2_apply, Ideal.addf_def, idx23]
  unfold Cert.Gru.proj
  congr 1
  refine Finset.sum_congr rfl fun k _ => ?_
  rw [lidx1, ridx1, val_main_v0_apply, idx0]

theorem lidx6 (b : Fin 131072) (g : Fin 768) (k : Fin 128) : lidx_main_v6 (ix2 b g) k = ix2 b k :=
  funext fun a => Fin.ext (by match a with | ⟨0, _⟩ => rfl | ⟨1, _⟩ => rfl)
theorem ridx6 (b : Fin 131072) (g : Fin 768) (k : Fin 128) : ridx_main_v6 (ix2 b g) k = ix2 g k :=
  funext fun a => Fin.ext (by match a with | ⟨0, _⟩ => rfl | ⟨1, _⟩ => rfl)
theorem idx78 (b : Fin 131072) (g : Fin 768) : idx_main_v7 (idx_main_v8 (ix2 b g)) = ix1 g :=
  funext fun a => Fin.ext (by match a with | ⟨0, _⟩ => rfl)
theorem lidx10 (b : Fin 131072) (g : Fin 768) (k : Fin 256) : lidx_main_v10 (ix2 b g) k = ix2 b k :=
  funext fun a => Fin.ext (by match a with | ⟨0, _⟩ => rfl | ⟨1, _⟩ => rfl)
theorem ridx10 (b : Fin 131072) (g : Fin 768) (k : Fin 256) : ridx_main_v10 (ix2 b g) k = ix2 g k :=
  funext fun a => Fin.ext (by match a with | ⟨0, _⟩ => rfl | ⟨1, _⟩ => rfl)
theorem idx1112 (b : Fin 131072) (g : Fin 768) : idx_main_v11 (idx_main_v12 (ix2 b g)) = ix1 g :=
  funext fun a => Fin.ext (by match a with | ⟨0, _⟩ => rfl)

/-- Stage 9 is the input pre-activation, projecting first. -/
theorem v9_read (b : Fin 131072) (g : Fin 768) :
    val_main_v9 (F := Ideal) x0 x2 x3 x4 x6 (ix2 b g) = Cert.Gru.giUnfolded (args x0 x1 x2 x3 x4 x5 x6 x7 x8 x9) b g := by
  rw [val_main_v9_apply, val_main_v6_apply, val_main_v8_apply, val_main_v7_apply, Ideal.addf_def, idx78]
  unfold Cert.Gru.giUnfolded
  congr 1
  refine Finset.sum_congr rfl fun k _ => ?_
  rw [lidx6, ridx6, v4_read x0 x1 x2 x3 x4 x5 x6 x7 x8 x9]

/-- Stage 13 is the hidden pre-activation. -/
theorem v13_read (b : Fin 131072) (g : Fin 768) :
    val_main_v13 (F := Ideal) x1 x5 x7 (ix2 b g) = Cert.Gru.gh (args x0 x1 x2 x3 x4 x5 x6 x7 x8 x9) b g := by
  rw [val_main_v13_apply, val_main_v10_apply, val_main_v12_apply, val_main_v11_apply, Ideal.addf_def, idx1112]
  unfold Cert.Gru.gh
  congr 1
  refine Finset.sum_congr rfl fun k _ => ?_
  rw [lidx10, ridx10, val_main_v5_apply, idx5]

/-! ### The three gate columns -/

theorem idx14 (b : Fin 131072) (j : Fin 256) : idx_main_v14 (ix2 b j) = ix2 b (Cert.Gru.colR j) :=
  funext fun a => Fin.ext (by match a with | ⟨0, _⟩ => rfl | ⟨1, _⟩ => rfl)
theorem idx15 (b : Fin 131072) (j : Fin 256) : idx_main_v15 (ix2 b j) = ix2 b (Cert.Gru.colZ j) :=
  funext fun a => Fin.ext (by match a with | ⟨0, _⟩ => rfl | ⟨1, _⟩ => rfl)
theorem idx16 (b : Fin 131072) (j : Fin 256) : idx_main_v16 (ix2 b j) = ix2 b (Cert.Gru.colN j) :=
  funext fun a => Fin.ext (by match a with | ⟨0, _⟩ => rfl | ⟨1, _⟩ => rfl)
theorem idx17 (b : Fin 131072) (j : Fin 256) : idx_main_v17 (ix2 b j) = ix2 b (Cert.Gru.colR j) :=
  funext fun a => Fin.ext (by match a with | ⟨0, _⟩ => rfl | ⟨1, _⟩ => rfl)
theorem idx18 (b : Fin 131072) (j : Fin 256) : idx_main_v18 (ix2 b j) = ix2 b (Cert.Gru.colZ j) :=
  funext fun a => Fin.ext (by match a with | ⟨0, _⟩ => rfl | ⟨1, _⟩ => rfl)
theorem idx19 (b : Fin 131072) (j : Fin 256) : idx_main_v19 (ix2 b j) = ix2 b (Cert.Gru.colN j) :=
  funext fun a => Fin.ext (by match a with | ⟨0, _⟩ => rfl | ⟨1, _⟩ => rfl)

/-! ### The sigmoid as the programs write it -/

/-- The f32 word 0x3F800000 denotes the number one. -/
theorem one_eq : Cert.Gru.one = 1 := by
  simp [Ideal.ofBits, Ideal.ieee, -EReal.coe_mul]; norm_num

/-- 1 / (1 + exp (−s)) is the logistic function of s. -/
theorem sigmoid_eq (s : EReal) :
    Ideal.div Cert.Gru.one (Cert.Gru.one + Ideal.exp (-s)) = Ideal.logistic s := by
  rw [one_eq]; rfl

/-- The reset gate. -/
theorem v26_read (b : Fin 131072) (j : Fin 256) :
    val_main_v26 (F := Ideal) x0 x1 x2 x3 x4 x5 x6 x7 (ix2 b j)
      = Ideal.logistic (Cert.Gru.giUnfolded (args x0 x1 x2 x3 x4 x5 x6 x7 x8 x9) b (Cert.Gru.colR j) + Cert.Gru.gh (args x0 x1 x2 x3 x4 x5 x6 x7 x8 x9) b (Cert.Gru.colR j)) := by
  rw [val_main_v26_apply, val_main_v25_apply, val_main_cst_0_apply, val_main_v24_apply, val_main_v23_apply,
    val_main_cst_apply, val_main_v22_apply, val_main_v21_apply, val_main_v20_apply, val_main_v14_apply,
    val_main_v17_apply, idx14, idx17, v9_read x0 x1 x2 x3 x4 x5 x6 x7 x8 x9, v13_read x0 x1 x2 x3 x4 x5 x6 x7 x8 x9,
    Ideal.hostDivf_def, Ideal.addf_def, Ideal.addf_def, Ideal.hostUnary_exp_def, Ideal.hostNegf_def, Ideal.negf_def,
    Ideal.ofBits_def]
  exact sigmoid_eq _

/-- The update gate. -/
theorem v33_read (b : Fin 131072) (j : Fin 256) :
    val_main_v33 (F := Ideal) x0 x1 x2 x3 x4 x5 x6 x7 (ix2 b j)
      = Ideal.logistic (Cert.Gru.giUnfolded (args x0 x1 x2 x3 x4 x5 x6 x7 x8 x9) b (Cert.Gru.colZ j) + Cert.Gru.gh (args x0 x1 x2 x3 x4 x5 x6 x7 x8 x9) b (Cert.Gru.colZ j)) := by
  rw [val_main_v33_apply, val_main_v32_apply, val_main_cst_2_apply, val_main_v31_apply, val_main_v30_apply,
    val_main_cst_1_apply, val_main_v29_apply, val_main_v28_apply, val_main_v27_apply, val_main_v15_apply,
    val_main_v18_apply, idx15, idx18, v9_read x0 x1 x2 x3 x4 x5 x6 x7 x8 x9, v13_read x0 x1 x2 x3 x4 x5 x6 x7 x8 x9,
    Ideal.hostDivf_def, Ideal.addf_def, Ideal.addf_def, Ideal.hostUnary_exp_def, Ideal.hostNegf_def, Ideal.negf_def,
    Ideal.ofBits_def]
  exact sigmoid_eq _

/-! ### The cell and the head -/

/-- The candidate. -/
theorem v36_read (b : Fin 131072) (j : Fin 256) :
    val_main_v36 (F := Ideal) x0 x1 x2 x3 x4 x5 x6 x7 (ix2 b j)
      = Ideal.tanh (Cert.Gru.giUnfolded (args x0 x1 x2 x3 x4 x5 x6 x7 x8 x9) b (Cert.Gru.colN j)
          + Ideal.logistic (Cert.Gru.giUnfolded (args x0 x1 x2 x3 x4 x5 x6 x7 x8 x9) b (Cert.Gru.colR j) + Cert.Gru.gh (args x0 x1 x2 x3 x4 x5 x6 x7 x8 x9) b (Cert.Gru.colR j))
            * Cert.Gru.gh (args x0 x1 x2 x3 x4 x5 x6 x7 x8 x9) b (Cert.Gru.colN j)) := by
  rw [val_main_v36_apply, val_main_v35_apply, val_main_v16_apply, val_main_v34_apply, v26_read x0 x1 x2 x3 x4 x5 x6 x7 x8 x9,
    val_main_v19_apply, idx16, idx19, v9_read x0 x1 x2 x3 x4 x5 x6 x7 x8 x9, v13_read x0 x1 x2 x3 x4 x5 x6 x7 x8 x9]
  simp only [Ideal.hostUnary_tanh_def, Ideal.addf_def, Ideal.mulf_def]

/-- Stage 41 is the new hidden entry: (1 − z) · n + z · h. -/
theorem hnew_read (b : Fin 131072) (j : Fin 256) :
    val_main_v41 (F := Ideal) x0 x1 x2 x3 x4 x5 x6 x7 (ix2 b j)
      = Cert.Gru.hnew (⟨x0, x1, x2, x3, x4, x5, x6, x7, x8, x9⟩ : Cert.Gru.Args) (Cert.Gru.giUnfolded (⟨x0, x1, x2, x3, x4, x5, x6, x7, x8, x9⟩ : Cert.Gru.Args)) b j := by
  rw [val_main_v41_apply, val_main_v39_apply, val_main_v38_apply, val_main_v37_apply, val_main_cst_3_apply,
    val_main_v40_apply, v33_read x0 x1 x2 x3 x4 x5 x6 x7 x8 x9, v36_read x0 x1 x2 x3 x4 x5 x6 x7 x8 x9, val_main_v5_apply, idx5]
  simp only [Ideal.addf_def, Ideal.mulf_def, Ideal.subf_def, Ideal.ofBits_def]
  rfl

theorem lidx42 (b : Fin 131072) (k : Fin 256) : lidx_main_v42 (ix2 b (0 : Fin 1)) k = ix2 b k :=
  funext fun a => Fin.ext (by match a with | ⟨0, _⟩ => rfl | ⟨1, _⟩ => rfl)
theorem ridx42 (b : Fin 131072) (k : Fin 256) : ridx_main_v42 (ix2 b (0 : Fin 1)) k = ix2 (0 : Fin 1) k :=
  funext fun a => Fin.ext (by match a with | ⟨0, _⟩ => rfl | ⟨1, _⟩ => rfl)
theorem idx4344 (b : Fin 131072) : idx_main_v43 (idx_main_v44 (ix2 b (0 : Fin 1))) = ix1 (0 : Fin 1) :=
  funext fun a => Fin.ext (by match a with | ⟨0, _⟩ => rfl)

/-- Stage 45 is the head's output: Σ_j h'_j · Whd 0 j + bhd 0. -/
theorem pred_read (b : Fin 131072) :
    val_main_v45 (F := Ideal) x0 x1 x2 x3 x4 x5 x6 x7 x8 x9 (ix2 b 0)
      = Cert.Gru.pred (⟨x0, x1, x2, x3, x4, x5, x6, x7, x8, x9⟩ : Cert.Gru.Args) (Cert.Gru.giUnfolded (⟨x0, x1, x2, x3, x4, x5, x6, x7, x8, x9⟩ : Cert.Gru.Args)) b := by
  rw [val_main_v45_apply, val_main_v42_apply, val_main_v44_apply, val_main_v43_apply, Ideal.addf_def, idx4344]
  unfold Cert.Gru.pred
  congr 1
  refine Finset.sum_congr rfl fun k _ => ?_
  rw [lidx42, ridx42, hnew_read x0 x1 x2 x3 x4 x5 x6 x7 x8 x9]

end Cert.ReferenceIdeal.RefRead

end
-- ==== Proof.KerEntry.lean ====
/-
  What the buffers read by the kernel region's windows hold when the region is entered, entry by entry, in terms of
  the argument arrays.

  Before the region the program runs eighteen whole-array operations on the arguments: it drops the unit axis of the
  input and of the previous hidden state, multiplies the transposed projection matrix by the transposed input-gate
  matrix (the combined weight, `wcomb`), multiplies the projection bias by the same transposed matrix and adds the
  input-gate bias (the combined bias, `bcomb`), and transposes or re-shapes the remaining weights and biases.  A
  change of float format is the identity on extended reals, so each buffer is a re-indexing of an argument, or one of
  the two finite sums of the specification.
-/
import proofs.«102828_j89644557402351_2_alg».proof.Proof.Gen.KernelIdeal.Frame
import proofs.«102828_j89644557402351_2_alg».proof.Proof.KerArgs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable [Facts]

variable (m : (ℓ : Loc nD τ sig) → Buf (Elt Ideal) ℓ) (c : Dev nD)

/-! ## The two row arrays: a unit axis dropped -/

/-- The input with its middle unit axis dropped. -/
theorem v0_eq : (V (F := Ideal) m c main_v0 : S131072x40.Idx → EReal)
    = shapeCast S131072x40 (m ((c.tc : Thread nD τ).loc main_arg0)) shapeCasts_S131072x1x40_S131072x40 := by
  show StableHlo.after hostOps0 (fun b => m (c, b)) (Proc.devRef .tc main_v0) = _
  after_results
  rfl

theorem entry_v0 (b : Fin 131072) (i : Fin 40) :
    V (F := Ideal) m c main_v0 (ix2 b i) = (argsAt m c).x (ix3 b 0 i) := by
  refine (congrFun (v0_eq m c) (ix2 b i)).trans ?_
  exact shapeCast_apply _ shapeCasts_S131072x1x40_S131072x40 (ix2 b i) (ix3 b 0 i) (by
    rw [Shape.rowMajor_val_three, Shape.rowMajor_val_two]
    show (b.val * 1 + 0) * 40 + i.val = b.val * 40 + i.val
    omega)

/-- The previous hidden state with its leading unit axis dropped. -/
theorem v1_eq : (V (F := Ideal) m c main_v1 : S131072x256.Idx → EReal)
    = shapeCast S131072x256 (m ((c.tc : Thread nD τ).loc main_arg1)) shapeCasts_S1x131072x256_S131072x256 := by
  show StableHlo.after hostOps0 (fun b => m (c, b)) (Proc.devRef .tc main_v1) = _
  after_results
  rfl

theorem entry_v1 (b : Fin 131072) (k : Fin 256) :
    V (F := Ideal) m c main_v1 (ix2 b k) = (argsAt m c).h (ix3 0 b k) := by
  refine (congrFun (v1_eq m c) (ix2 b k)).trans ?_
  exact shapeCast_1ab_ab_apply _ shapeCasts_S1x131072x256_S131072x256 b k

/-! ## The two bias rows that are only re-shaped -/

/-- The hidden-gate bias as a one-row matrix. -/
theorem v14_eq : (V (F := Ideal) m c main_v14 : S1x768.Idx → EReal)
    = shapeCast S1x768 (m ((c.tc : Thread nD τ).loc main_arg7)) shapeCasts_S768_S1x768 := by
  show StableHlo.after hostOps0 (fun b => m (c, b)) (Proc.devRef .tc main_v14) = _
  after_results
  rfl

theorem entry_v14 (g : Fin 768) :
    V (F := Ideal) m c main_v14 (ix2 0 g) = (argsAt m c).bhh (ix1 g) := by
  refine (congrFun (v14_eq m c) (ix2 0 g)).trans ?_
  exact shapeCast_a_1a_apply _ shapeCasts_S768_S1x768 0 g

/-- The head's bias as a one-entry matrix. -/
theorem v17_eq : (V (F := Ideal) m c main_v17 : S1x1.Idx → EReal)
    = shapeCast S1x1 (m ((c.tc : Thread nD τ).loc main_arg9)) shapeCasts_S1_S1x1 := by
  show StableHlo.after hostOps0 (fun b => m (c, b)) (Proc.devRef .tc main_v17) = _
  after_results
  rfl

theorem entry_v17 :
    V (F := Ideal) m c main_v17 (ix2 0 0) = (argsAt m c).bhd (ix1 0) := by
  refine (congrFun (v17_eq m c) (ix2 0 0)).trans ?_
  exact shapeCast_a_1a_apply _ shapeCasts_S1_S1x1 0 0

/-! ## The two transposed weight matrices -/

/-- The hidden-gate weights transposed (the change of format is the identity on extended reals). -/
theorem v13_eq : (V (F := Ideal) m c main_v13 : S256x768.Idx → EReal)
    = transpose S256x768 [1, 0] (m ((c.tc : Thread nD τ).loc main_arg5)) transposes_S768x256_S256x768_1_0 := by
  show StableHlo.after hostOps0 (fun b => m (c, b)) (Proc.devRef .tc main_v13) = _
  after_results
  rfl

theorem entry_v13 (k : Fin 256) (g : Fin 768) :
    V (F := Ideal) m c main_v13 (ix2 k g) = (argsAt m c).Whh (ix2 g k) := by
  refine (congrFun (v13_eq m c) (ix2 k g)).trans ?_
  exact transpose_ix2_apply _ transposes_S768x256_S256x768_1_0 k g

/-- The head's weight row transposed into a column. -/
theorem v16_eq : (V (F := Ideal) m c main_v16 : S256x1.Idx → EReal)
    = transpose S256x1 [1, 0] (m ((c.tc : Thread nD τ).loc main_arg8)) transposes_S1x256_S256x1_1_0 := by
  show StableHlo.after hostOps0 (fun b => m (c, b)) (Proc.devRef .tc main_v16) = _
  after_results
  rfl

theorem entry_v16 (k : Fin 256) :
    V (F := Ideal) m c main_v16 (ix2 k 0) = (argsAt m c).Whd (ix2 0 k) := by
  refine (congrFun (v16_eq m c) (ix2 k 0)).trans ?_
  exact transpose_ix2_apply _ transposes_S1x256_S256x1_1_0 k 0

/-! ## The two products with the transposed input-gate weights

A product of an `n × 128` matrix by a `128 × 768` matrix, read at an entry, is the sum over the shared axis of the
entries' products: the operation's index maps put the output's row on the left factor's first axis, its column on the
right factor's second axis, and the summation index on the two contracted axes. -/

theorem dotW_lhs0 (j : S40x768.Idx) (q : dot_S40x128_S128x768_S40x768_1_0_0_1_n_n.contr.Idx) :
    (dot_S40x128_S128x768_S40x768_1_0_0_1_n_n.lhsIdx j q 0).val = (j 0).val := by
  unfold DotDims.lhsIdx
  rw [dif_neg (show ¬(0 : Fin S40x128.rank) ∈ dot_S40x128_S128x768_S40x768_1_0_0_1_n_n.lhsBatch by decide), dif_pos (show (0 : Fin S40x128.rank) ∈ dot_S40x128_S128x768_S40x768_1_0_0_1_n_n.lhsNonContracting by decide)]
  rfl
theorem dotW_lhs1 (j : S40x768.Idx) (q : dot_S40x128_S128x768_S40x768_1_0_0_1_n_n.contr.Idx) :
    (dot_S40x128_S128x768_S40x768_1_0_0_1_n_n.lhsIdx j q 1).val = (q ⟨0, by decide⟩).val :=
  dot_S40x128_S128x768_S40x768_1_0_0_1_n_n.lhsIdx_val_of_single rfl j q
theorem dotW_rhs0 (j : S40x768.Idx) (q : dot_S40x128_S128x768_S40x768_1_0_0_1_n_n.contr.Idx) :
    (dot_S40x128_S128x768_S40x768_1_0_0_1_n_n.rhsIdx j q 0).val = (q ⟨0, by decide⟩).val :=
  dot_S40x128_S128x768_S40x768_1_0_0_1_n_n.rhsIdx_val_of_single rfl j q
theorem dotW_rhs1 (j : S40x768.Idx) (q : dot_S40x128_S128x768_S40x768_1_0_0_1_n_n.contr.Idx) :
    (dot_S40x128_S128x768_S40x768_1_0_0_1_n_n.rhsIdx j q 1).val = (j 1).val := by
  unfold DotDims.rhsIdx
  rw [dif_neg (show ¬(1 : Fin S128x768.rank) ∈ dot_S40x128_S128x768_S40x768_1_0_0_1_n_n.rhsBatch by decide), dif_pos (show (1 : Fin S128x768.rank) ∈ dot_S40x128_S128x768_S40x768_1_0_0_1_n_n.rhsNonContracting by decide)]
  rfl
/-- The 40 × 128 by 128 × 768 product at an entry. -/
theorem dotW_apply (L : (⟨S40x128, .f32⟩ : BufTy).Contents (Elt Ideal)) (R : (⟨S128x768, .f32⟩ : BufTy).Contents (Elt Ideal))
    (i : Fin 40) (g : Fin 768) :
    Host.dotGeneral (F := Ideal) (φ₁ := .f32) (φ₂ := .f32) dot_S40x128_S128x768_S40x768_1_0_0_1_n_n none L R (ix2 i g) = ∑ p : Fin 128, L (ix2 i p) * R (ix2 p g) := by
  simp only [Host.dotGeneral]
  rw [Ideal.dotGeneral_apply, ← Equiv.sum_comp (ValueIdx.contrEquiv1 dot_S40x128_S128x768_S40x768_1_0_0_1_n_n 128 rfl rfl).symm]
  refine Finset.sum_congr rfl fun p _ => ?_
  have hp := ValueIdx.contrEquiv1_symm_val dot_S40x128_S128x768_S40x768_1_0_0_1_n_n 128 rfl rfl p
  have el : dot_S40x128_S128x768_S40x768_1_0_0_1_n_n.lhsIdx (ix2 i g) ((ValueIdx.contrEquiv1 dot_S40x128_S128x768_S40x768_1_0_0_1_n_n 128 rfl rfl).symm p) = ix2 i p := funext fun a => Fin.ext (by
    match a with
    | ⟨0, _⟩ => exact dotW_lhs0 _ _
    | ⟨1, _⟩ => exact (dotW_lhs1 _ _).trans hp)
  have er : dot_S40x128_S128x768_S40x768_1_0_0_1_n_n.rhsIdx (ix2 i g) ((ValueIdx.contrEquiv1 dot_S40x128_S128x768_S40x768_1_0_0_1_n_n 128 rfl rfl).symm p) = ix2 p g := funext fun a => Fin.ext (by
    match a with
    | ⟨0, _⟩ => exact (dotW_rhs0 _ _).trans hp
    | ⟨1, _⟩ => exact dotW_rhs1 _ _)
  rw [el, er]

theorem dotB_lhs0 (j : S1x768.Idx) (q : dot_S1x128_S128x768_S1x768_1_0_0_1_n_n.contr.Idx) :
    (dot_S1x128_S128x768_S1x768_1_0_0_1_n_n.lhsIdx j q 0).val = (j 0).val := by
  unfold DotDims.lhsIdx
  rw [dif_neg (show ¬(0 : Fin S1x128.rank) ∈ dot_S1x128_S128x768_S1x768_1_0_0_1_n_n.lhsBatch by decide), dif_pos (show (0 : Fin S1x128.rank) ∈ dot_S1x128_S128x768_S1x768_1_0_0_1_n_n.lhsNonContracting by decide)]
  rfl
theorem dotB_lhs1 (j : S1x768.Idx) (q : dot_S1x128_S128x768_S1x768_1_0_0_1_n_n.contr.Idx) :
    (dot_S1x128_S128x768_S1x768_1_0_0_1_n_n.lhsIdx j q 1).val = (q ⟨0, by decide⟩).val :=
  dot_S1x128_S128x768_S1x768_1_0_0_1_n_n.lhsIdx_val_of_single rfl j q
theorem dotB_rhs0 (j : S1x768.Idx) (q : dot_S1x128_S128x768_S1x768_1_0_0_1_n_n.contr.Idx) :
    (dot_S1x128_S128x768_S1x768_1_0_0_1_n_n.rhsIdx j q 0).val = (q ⟨0, by decide⟩).val :=
  dot_S1x128_S128x768_S1x768_1_0_0_1_n_n.rhsIdx_val_of_single rfl j q
theorem dotB_rhs1 (j : S1x768.Idx) (q : dot_S1x128_S128x768_S1x768_1_0_0_1_n_n.contr.Idx) :
    (dot_S1x128_S128x768_S1x768_1_0_0_1_n_n.rhsIdx j q 1).val = (j 1).val := by
  unfold DotDims.rhsIdx
  rw [dif_neg (show ¬(1 : Fin S128x768.rank) ∈ dot_S1x128_S128x768_S1x768_1_0_0_1_n_n.rhsBatch by decide), dif_pos (show (1 : Fin S128x768.rank) ∈ dot_S1x128_S128x768_S1x768_1_0_0_1_n_n.rhsNonContracting by decide)]
  rfl
/-- The 1 × 128 by 128 × 768 product at an entry. -/
theorem dotB_apply (L : (⟨S1x128, .f32⟩ : BufTy).Contents (Elt Ideal)) (R : (⟨S128x768, .f32⟩ : BufTy).Contents (Elt Ideal))
    (i : Fin 1) (g : Fin 768) :
    Host.dotGeneral (F := Ideal) (φ₁ := .f32) (φ₂ := .f32) dot_S1x128_S128x768_S1x768_1_0_0_1_n_n none L R (ix2 i g) = ∑ p : Fin 128, L (ix2 i p) * R (ix2 p g) := by
  simp only [Host.dotGeneral]
  rw [Ideal.dotGeneral_apply, ← Equiv.sum_comp (ValueIdx.contrEquiv1 dot_S1x128_S128x768_S1x768_1_0_0_1_n_n 128 rfl rfl).symm]
  refine Finset.sum_congr rfl fun p _ => ?_
  have hp := ValueIdx.contrEquiv1_symm_val dot_S1x128_S128x768_S1x768_1_0_0_1_n_n 128 rfl rfl p
  have el : dot_S1x128_S128x768_S1x768_1_0_0_1_n_n.lhsIdx (ix2 i g) ((ValueIdx.contrEquiv1 dot_S1x128_S128x768_S1x768_1_0_0_1_n_n 128 rfl rfl).symm p) = ix2 i p := funext fun a => Fin.ext (by
    match a with
    | ⟨0, _⟩ => exact dotB_lhs0 _ _
    | ⟨1, _⟩ => exact (dotB_lhs1 _ _).trans hp)
  have er : dot_S1x128_S128x768_S1x768_1_0_0_1_n_n.rhsIdx (ix2 i g) ((ValueIdx.contrEquiv1 dot_S1x128_S128x768_S1x768_1_0_0_1_n_n 128 rfl rfl).symm p) = ix2 p g := funext fun a => Fin.ext (by
    match a with
    | ⟨0, _⟩ => exact (dotB_rhs0 _ _).trans hp
    | ⟨1, _⟩ => exact dotB_rhs1 _ _)
  rw [el, er]

/-- The combined weight's buffer: the transposed projection matrix times the transposed input-gate matrix. -/
theorem v10_eq : (V (F := Ideal) m c main_v10 : S40x768.Idx → EReal)
    = Host.dotGeneral (F := Ideal) (φ₁ := .f32) (φ₂ := .f32) dot_S40x128_S128x768_S40x768_1_0_0_1_n_n none
        (transpose S40x128 [1, 0] (m ((c.tc : Thread nD τ).loc main_arg2)) transposes_S128x40_S40x128_1_0)
        (transpose S128x768 [1, 0] (m ((c.tc : Thread nD τ).loc main_arg4)) transposes_S768x128_S128x768_1_0) := by
  show StableHlo.after hostOps0 (fun b => m (c, b)) (Proc.devRef .tc main_v10) = _
  after_results
  rfl

theorem entry_v10 (i : Fin 40) (g : Fin 768) :
    V (F := Ideal) m c main_v10 (ix2 i g) = Cert.Gru.wcomb (argsAt m c) i g := by
  refine (congrFun (v10_eq m c) (ix2 i g)).trans ?_
  refine (dotW_apply _ _ i g).trans ?_
  unfold Cert.Gru.wcomb
  exact Finset.sum_congr rfl fun p _ => congrArg₂ (· * ·) (transpose_ix2_apply _ transposes_S128x40_S40x128_1_0 i p)
    (transpose_ix2_apply _ transposes_S768x128_S128x768_1_0 p g)

/-- The combined bias's buffer: the projection bias as a row, times the transposed input-gate matrix, flattened, plus
    the input-gate bias, as a row again. -/
theorem v11_eq : (V (F := Ideal) m c main_v11 : S1x768.Idx → EReal)
    = shapeCast S1x768 (addf (F := Ideal) (s := S768) (φ := .f32)
        (shapeCast S768 (Host.dotGeneral (F := Ideal) (φ₁ := .f32) (φ₂ := .f32) dot_S1x128_S128x768_S1x768_1_0_0_1_n_n none
          (broadcastInDim S1x128 ![1] bcast_S128_S1x128_1 (m ((c.tc : Thread nD τ).loc main_arg3)))
          (transpose S128x768 [1, 0] (m ((c.tc : Thread nD τ).loc main_arg4)) transposes_S768x128_S128x768_1_0)) shapeCasts_S1x768_S768)
        (m ((c.tc : Thread nD τ).loc main_arg6))) shapeCasts_S768_S1x768 := by
  show StableHlo.after hostOps0 (fun b => m (c, b)) (Proc.devRef .tc main_v11) = _
  after_results
  rfl

theorem entry_v11 (g : Fin 768) :
    V (F := Ideal) m c main_v11 (ix2 0 g) = Cert.Gru.bcomb (argsAt m c) g := by
  refine (congrFun (v11_eq m c) (ix2 0 g)).trans ?_
  refine (shapeCast_a_1a_apply _ shapeCasts_S768_S1x768 0 g).trans ?_
  refine (addf_apply (s := S768) (φ := .f32) _ _ (ix1 g)).trans ?_
  unfold Cert.Gru.bcomb
  refine congrArg₂ (· + ·) ?_ rfl
  refine (shapeCast_1a_a_apply _ shapeCasts_S1x768_S768 g).trans ?_
  refine (dotB_apply _ _ 0 g).trans ?_
  refine Finset.sum_congr rfl fun p _ => ?_
  refine congrArg₂ (· * ·) ?_ (transpose_ix2_apply _ transposes_S768x128_S128x768_1_0 p g)
  exact broadcastInDim_apply _ bcast_S128_S1x128_1 _ (ix2 0 p) (ix1 p) (fun a => match a with
    | ⟨0, _⟩ => by show p.val = if (128 : Nat) = 1 then 0 else p.val; rw [if_neg (by decide)])

end Cert.KernelIdeal.Entry

end
-- ==== Proof.KerPayload.lean ====
/-
  The kernel body's arithmetic on one block, read entry by entry.

  A block holds 2048 batch rows. Its three matrix products are plain sums over the contracted axis; the two
  bias rows are added to every row; the 768 gate columns are cut into thirds by slices; the rest is pointwise.
-/
import proofs.«102828_j89644557402351_2_alg».proof.Proof.Gen.KernelIdeal.Skeleton
import proofs.«102828_j89644557402351_2_alg».proof.Proof.GruSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Idealize.SL.Sem

variable [Facts]
open Facts₀ Facts

theorem mm_x_l0 (j : S2048x768.Idx) (q : dot_S2048x40_S40x768_S2048x768_1_0_0_1_n_n.contr.Idx) : (dot_S2048x40_S40x768_S2048x768_1_0_0_1_n_n.lhsIdx j q 0).val = (j 0).val := by
  unfold DotDims.lhsIdx
  rw [dif_neg (show ¬(0 : Fin S2048x40.rank) ∈ dot_S2048x40_S40x768_S2048x768_1_0_0_1_n_n.lhsBatch by decide), dif_pos (show (0 : Fin S2048x40.rank) ∈ dot_S2048x40_S40x768_S2048x768_1_0_0_1_n_n.lhsNonContracting by decide)]
  rfl
theorem mm_x_l1 (j : S2048x768.Idx) (q : dot_S2048x40_S40x768_S2048x768_1_0_0_1_n_n.contr.Idx) : (dot_S2048x40_S40x768_S2048x768_1_0_0_1_n_n.lhsIdx j q 1).val = (q ⟨0, by decide⟩).val :=
  dot_S2048x40_S40x768_S2048x768_1_0_0_1_n_n.lhsIdx_val_of_single rfl j q
theorem mm_x_r0 (j : S2048x768.Idx) (q : dot_S2048x40_S40x768_S2048x768_1_0_0_1_n_n.contr.Idx) : (dot_S2048x40_S40x768_S2048x768_1_0_0_1_n_n.rhsIdx j q 0).val = (q ⟨0, by decide⟩).val :=
  dot_S2048x40_S40x768_S2048x768_1_0_0_1_n_n.rhsIdx_val_of_single rfl j q
theorem mm_x_r1 (j : S2048x768.Idx) (q : dot_S2048x40_S40x768_S2048x768_1_0_0_1_n_n.contr.Idx) : (dot_S2048x40_S40x768_S2048x768_1_0_0_1_n_n.rhsIdx j q 1).val = (j 1).val := by
  unfold DotDims.rhsIdx
  rw [dif_neg (show ¬(1 : Fin S40x768.rank) ∈ dot_S2048x40_S40x768_S2048x768_1_0_0_1_n_n.rhsBatch by decide), dif_pos (show (1 : Fin S40x768.rank) ∈ dot_S2048x40_S40x768_S2048x768_1_0_0_1_n_n.rhsNonContracting by decide)]
  rfl

/-- The 2048 × 40 by 40 × 768 product into a zero accumulator, read at an entry: the sum over the contracted axis. -/
theorem mm_x (x : FVec Ideal S2048x40 .bf16) (w : FVec Ideal S40x768 .bf16) (r : Fin 2048) (g : Fin 768) :
    matmul dot_S2048x40_S40x768_S2048x768_1_0_0_1_n_n none x w (constant (F := Ideal) S2048x768 .f32 0x00000000#32) (ix2 r g)
      = ∑ k : Fin 40, x (ix2 r k) * w (ix2 k g) := by
  simp only [matmul]
  rw [Ideal.matmul_constant_zero_apply, ← Equiv.sum_comp (ValueIdx.contrEquiv1 dot_S2048x40_S40x768_S2048x768_1_0_0_1_n_n 40 rfl rfl).symm]
  refine Finset.sum_congr rfl fun k _ => ?_
  have hk := ValueIdx.contrEquiv1_symm_val dot_S2048x40_S40x768_S2048x768_1_0_0_1_n_n 40 rfl rfl k
  have el : dot_S2048x40_S40x768_S2048x768_1_0_0_1_n_n.lhsIdx (ix2 r g) ((ValueIdx.contrEquiv1 dot_S2048x40_S40x768_S2048x768_1_0_0_1_n_n 40 rfl rfl).symm k) = ix2 r k := funext fun a => Fin.ext (by
    match a with
    | ⟨0, _⟩ => exact mm_x_l0 _ _
    | ⟨1, _⟩ => exact (mm_x_l1 _ _).trans hk)
  have er : dot_S2048x40_S40x768_S2048x768_1_0_0_1_n_n.rhsIdx (ix2 r g) ((ValueIdx.contrEquiv1 dot_S2048x40_S40x768_S2048x768_1_0_0_1_n_n 40 rfl rfl).symm k) = ix2 k g := funext fun a => Fin.ext (by
    match a with
    | ⟨0, _⟩ => exact (mm_x_r0 _ _).trans hk
    | ⟨1, _⟩ => exact mm_x_r1 _ _)
  rw [el, er]

theorem mm_h_l0 (j : S2048x768.Idx) (q : dot_S2048x256_S256x768_S2048x768_1_0_0_1_n_n.contr.Idx) : (dot_S2048x256_S256x768_S2048x768_1_0_0_1_n_n.lhsIdx j q 0).val = (j 0).val := by
  unfold DotDims.lhsIdx
  rw [dif_neg (show ¬(0 : Fin S2048x256.rank) ∈ dot_S2048x256_S256x768_S2048x768_1_0_0_1_n_n.lhsBatch by decide), dif_pos (show (0 : Fin S2048x256.rank) ∈ dot_S2048x256_S256x768_S2048x768_1_0_0_1_n_n.lhsNonContracting by decide)]
  rfl
theorem mm_h_l1 (j : S2048x768.Idx) (q : dot_S2048x256_S256x768_S2048x768_1_0_0_1_n_n.contr.Idx) : (dot_S2048x256_S256x768_S2048x768_1_0_0_1_n_n.lhsIdx j q 1).val = (q ⟨0, by decide⟩).val :=
  dot_S2048x256_S256x768_S2048x768_1_0_0_1_n_n.lhsIdx_val_of_single rfl j q
theorem mm_h_r0 (j : S2048x768.Idx) (q : dot_S2048x256_S256x768_S2048x768_1_0_0_1_n_n.contr.Idx) : (dot_S2048x256_S256x768_S2048x768_1_0_0_1_n_n.rhsIdx j q 0).val = (q ⟨0, by decide⟩).val :=
  dot_S2048x256_S256x768_S2048x768_1_0_0_1_n_n.rhsIdx_val_of_single rfl j q
theorem mm_h_r1 (j : S2048x768.Idx) (q : dot_S2048x256_S256x768_S2048x768_1_0_0_1_n_n.contr.Idx) : (dot_S2048x256_S256x768_S2048x768_1_0_0_1_n_n.rhsIdx j q 1).val = (j 1).val := by
  unfold DotDims.rhsIdx
  rw [dif_neg (show ¬(1 : Fin S256x768.rank) ∈ dot_S2048x256_S256x768_S2048x768_1_0_0_1_n_n.rhsBatch by decide), dif_pos (show (1 : Fin S256x768.rank) ∈ dot_S2048x256_S256x768_S2048x768_1_0_0_1_n_n.rhsNonContracting by decide)]
  rfl

/-- The 2048 × 256 by 256 × 768 product into a zero accumulator, read at an entry: the sum over the contracted axis. -/
theorem mm_h (x : FVec Ideal S2048x256 .bf16) (w : FVec Ideal S256x768 .bf16) (r : Fin 2048) (g : Fin 768) :
    matmul dot_S2048x256_S256x768_S2048x768_1_0_0_1_n_n none x w (constant (F := Ideal) S2048x768 .f32 0x00000000#32) (ix2 r g)
      = ∑ k : Fin 256, x (ix2 r k) * w (ix2 k g) := by
  simp only [matmul]
  rw [Ideal.matmul_constant_zero_apply, ← Equiv.sum_comp (ValueIdx.contrEquiv1 dot_S2048x256_S256x768_S2048x768_1_0_0_1_n_n 256 rfl rfl).symm]
  refine Finset.sum_congr rfl fun k _ => ?_
  have hk := ValueIdx.contrEquiv1_symm_val dot_S2048x256_S256x768_S2048x768_1_0_0_1_n_n 256 rfl rfl k
  have el : dot_S2048x256_S256x768_S2048x768_1_0_0_1_n_n.lhsIdx (ix2 r g) ((ValueIdx.contrEquiv1 dot_S2048x256_S256x768_S2048x768_1_0_0_1_n_n 256 rfl rfl).symm k) = ix2 r k := funext fun a => Fin.ext (by
    match a with
    | ⟨0, _⟩ => exact mm_h_l0 _ _
    | ⟨1, _⟩ => exact (mm_h_l1 _ _).trans hk)
  have er : dot_S2048x256_S256x768_S2048x768_1_0_0_1_n_n.rhsIdx (ix2 r g) ((ValueIdx.contrEquiv1 dot_S2048x256_S256x768_S2048x768_1_0_0_1_n_n 256 rfl rfl).symm k) = ix2 k g := funext fun a => Fin.ext (by
    match a with
    | ⟨0, _⟩ => exact (mm_h_r0 _ _).trans hk
    | ⟨1, _⟩ => exact mm_h_r1 _ _)
  rw [el, er]

theorem mm_head_l0 (j : S2048x1.Idx) (q : dot_S2048x256_S256x1_S2048x1_1_0_0_1_n_n.contr.Idx) : (dot_S2048x256_S256x1_S2048x1_1_0_0_1_n_n.lhsIdx j q 0).val = (j 0).val := by
  unfold DotDims.lhsIdx
  rw [dif_neg (show ¬(0 : Fin S2048x256.rank) ∈ dot_S2048x256_S256x1_S2048x1_1_0_0_1_n_n.lhsBatch by decide), dif_pos (show (0 : Fin S2048x256.rank) ∈ dot_S2048x256_S256x1_S2048x1_1_0_0_1_n_n.lhsNonContracting by decide)]
  rfl
theorem mm_head_l1 (j : S2048x1.Idx) (q : dot_S2048x256_S256x1_S2048x1_1_0_0_1_n_n.contr.Idx) : (dot_S2048x256_S256x1_S2048x1_1_0_0_1_n_n.lhsIdx j q 1).val = (q ⟨0, by decide⟩).val :=
  dot_S2048x256_S256x1_S2048x1_1_0_0_1_n_n.lhsIdx_val_of_single rfl j q
theorem mm_head_r0 (j : S2048x1.Idx) (q : dot_S2048x256_S256x1_S2048x1_1_0_0_1_n_n.contr.Idx) : (dot_S2048x256_S256x1_S2048x1_1_0_0_1_n_n.rhsIdx j q 0).val = (q ⟨0, by decide⟩).val :=
  dot_S2048x256_S256x1_S2048x1_1_0_0_1_n_n.rhsIdx_val_of_single rfl j q
theorem mm_head_r1 (j : S2048x1.Idx) (q : dot_S2048x256_S256x1_S2048x1_1_0_0_1_n_n.contr.Idx) : (dot_S2048x256_S256x1_S2048x1_1_0_0_1_n_n.rhsIdx j q 1).val = (j 1).val := by
  unfold DotDims.rhsIdx
  rw [dif_neg (show ¬(1 : Fin S256x1.rank) ∈ dot_S2048x256_S256x1_S2048x1_1_0_0_1_n_n.rhsBatch by decide), dif_pos (show (1 : Fin S256x1.rank) ∈ dot_S2048x256_S256x1_S2048x1_1_0_0_1_n_n.rhsNonContracting by decide)]
  rfl

/-- The 2048 × 256 by 256 × 1 product into a zero accumulator, read at an entry: the sum over the contracted axis. -/
theorem mm_head (x : FVec Ideal S2048x256 .bf16) (w : FVec Ideal S256x1 .bf16) (r : Fin 2048) (g : Fin 1) :
    matmul dot_S2048x256_S256x1_S2048x1_1_0_0_1_n_n none x w (constant (F := Ideal) S2048x1 .f32 0x00000000#32) (ix2 r g)
      = ∑ k : Fin 256, x (ix2 r k) * w (ix2 k g) := by
  simp only [matmul]
  rw [Ideal.matmul_constant_zero_apply, ← Equiv.sum_comp (ValueIdx.contrEquiv1 dot_S2048x256_S256x1_S2048x1_1_0_0_1_n_n 256 rfl rfl).symm]
  refine Finset.sum_congr rfl fun k _ => ?_
  have hk := ValueIdx.contrEquiv1_symm_val dot_S2048x256_S256x1_S2048x1_1_0_0_1_n_n 256 rfl rfl k
  have el : dot_S2048x256_S256x1_S2048x1_1_0_0_1_n_n.lhsIdx (ix2 r g) ((ValueIdx.contrEquiv1 dot_S2048x256_S256x1_S2048x1_1_0_0_1_n_n 256 rfl rfl).symm k) = ix2 r k := funext fun a => Fin.ext (by
    match a with
    | ⟨0, _⟩ => exact mm_head_l0 _ _
    | ⟨1, _⟩ => exact (mm_head_l1 _ _).trans hk)
  have er : dot_S2048x256_S256x1_S2048x1_1_0_0_1_n_n.rhsIdx (ix2 r g) ((ValueIdx.contrEquiv1 dot_S2048x256_S256x1_S2048x1_1_0_0_1_n_n 256 rfl rfl).symm k) = ix2 k g := funext fun a => Fin.ext (by
    match a with
    | ⟨0, _⟩ => exact (mm_head_r0 _ _).trans hk
    | ⟨1, _⟩ => exact mm_head_r1 _ _)
  rw [el, er]

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The hidden-state payload of a block at row `r`, column `j`: the cell of the block's two rows of
    pre-activations (products with the combined weights plus the bias rows) and the previous hidden entry. -/
theorem pay2_apply (x0 : FVec Ideal S2048x40 .f32) (x3 : FVec Ideal S40x768 .bf16) (x5 : FVec Ideal S1x768 .f32)
    (x10 : FVec Ideal S2048x256 .f32) (x12 : FVec Ideal S256x768 .bf16) (x14 : FVec Ideal S1x768 .f32)
    (r : Fin 2048) (j : Fin 256) :
    (k0_pay2 (F := Ideal) x0 x3 x5 x10 x12 x14 (ix2 r j) : EReal)
      = Cert.Gru.cell (fun g => (∑ i : Fin 40, (x0 (ix2 r i) : EReal) * (x3 (ix2 i g) : EReal)) + (x5 (ix2 0 g) : EReal))
          (fun g => (∑ k : Fin 256, (x10 (ix2 r k) : EReal) * (x12 (ix2 k g) : EReal)) + (x14 (ix2 0 g) : EReal))
          (x10 (ix2 r j)) j := by
  unfold k0_pay2 Cert.Gru.cell
  simp only [shapeCast_self]
  simp only [addf_apply, mulf_apply, subf_apply, broadcast_apply, logistic_apply, tanh_apply,
    slice2_axis1_eq, mm_x, mm_h, broadcastTo_1b_ab_apply, truncf_apply, Nat.zero_add]
  rfl

/-- The head's payload of a block at row `r`: the product of the new hidden row with the head column, plus the
    head's bias. -/
theorem pay1_apply (v35 : FVec Ideal S2048x256 .f32) (v37 : FVec Ideal S256x1 .bf16) (v39 : FVec Ideal S1x1 .f32)
    (r : Fin 2048) (q : Fin 1) :
    (k0_pay1 (F := Ideal) v35 v37 v39 (ix2 r q) : EReal)
      = (∑ k : Fin 256, (v35 (ix2 r k) : EReal) * (v37 (ix2 k q) : EReal)) + (v39 (ix2 0 q) : EReal) := by
  unfold k0_pay1
  simp only [addf_apply, mm_head, broadcastTo_1b_ab_apply, truncf_apply]

/-- The head column and the head bias pass through an identity cast. -/
theorem pay3_eq (x6 : FVec Ideal S256x1 .bf16) : k0_pay3 (F := Ideal) x6 = x6 := by
  unfold k0_pay3; exact shapeCast_self _ _
theorem pay4_eq (x7 : FVec Ideal S1x1 .f32) : k0_pay4 (F := Ideal) x7 = x7 := by
  unfold k0_pay4; exact shapeCast_self _ _

end Cert.KernelIdeal.Payload

end
-- ==== Proof.KerBlocks.lean ====
/-
  From blocks to arrays: after the run, the two output arrays of the region hold, at every batch row, the new
  hidden row and the head's output computed with the FOLDED input pre-activation.

  The grid has 64 points; point t handles the 2048 batch rows t·2048 … t·2048 + 2047. The two row-blocked
  inputs (the input rows and the previous hidden rows) and the two outputs move with t; the six weight and bias
  operands are whole arrays, the same at every point. So an entry (r, j) of point t's output block depends on
  batch row t·2048 + r only, and the blocks of the 64 points tile each output array.
-/
import proofs.«102828_j89644557402351_2_alg».proof.Proof.Gen.KernelIdeal.Frame
import proofs.«102828_j89644557402351_2_alg».proof.Proof.KerEntry
import proofs.«102828_j89644557402351_2_alg».proof.Proof.KerPayload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD)

theorem hz : (![0, 0] : Fin 2 → Nat) = fun _ => 0 := funext fun a => by fin_cases a <;> rfl

/-- The new hidden state as one function on the output array's index type. -/
def Hnew : S131072x256.Idx → EReal := fun i =>
  Cert.Gru.hnew (argsAt m c) (Cert.Gru.giFolded (argsAt m c)) ⟨(i 0).val, (i 0).isLt⟩ ⟨(i 1).val, (i 1).isLt⟩

/-- The head's output as one function on its array's index type. -/
def Pred : S131072x1.Idx → EReal := fun i =>
  Cert.Gru.pred (argsAt m c) (Cert.Gru.giFolded (argsAt m c)) ⟨(i 0).val, (i 0).isLt⟩

/-- The batch row that row `r` of point `t`'s block is. -/
def row (t : Fin cfg0.N) (r : Fin 2048) : Fin 131072 :=
  ⟨t.val * 2048 + r.val, by have h := t.isLt; have hN : cfg0.N = 64 := N_0; have hr := r.isLt; omega⟩

/-- The printed index maps, decided over the 64 points: the four row-blocked windows are at block t on the batch
    axis, everything else at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each input block, read at an entry -/

theorem blk0 (t : Fin cfg0.N) (r : Fin 2048) (i : Fin 40) :
    (iblk m c 0 t (ix2 r i) : EReal) = (argsAt m c).x (ix3 (row t r) 0 i) := by
  obtain ⟨e0, e1, -⟩ := idx_facts t
  have e : ((cfg0.win 0).blk t).view.emb (ix2 r i) = ix2 (row t r) i := by
    funext a; apply Fin.ext
    match a with
    | ⟨0, _⟩ => show win0_0.index t (0 : Fin 2) * 2048 + 1 * r.val = t.val * 2048 + r.val; omega
    | ⟨1, _⟩ => show win0_0.index t (1 : Fin 2) * 40 + 1 * i.val = i.val; omega
  show V m c main_v0 (((cfg0.win 0).blk t).view.emb (ix2 r i)) = _
  rw [e]
  exact Entry.entry_v0 m c _ _

theorem blk1 (t : Fin cfg0.N) (r : Fin 2048) (k : Fin 256) :
    (iblk m c 1 t (ix2 r k) : EReal) = (argsAt m c).h (ix3 0 (row t r) k) := by
  obtain ⟨-, -, e0, e1, -⟩ := idx_facts t
  have e : ((cfg0.win 1).blk t).view.emb (ix2 r k) = ix2 (row t r) k := by
    funext a; apply Fin.ext
    match a with
    | ⟨0, _⟩ => show win0_1.index t (0 : Fin 2) * 2048 + 1 * r.val = t.val * 2048 + r.val; omega
    | ⟨1, _⟩ => show win0_1.index t (1 : Fin 2) * 256 + 1 * k.val = k.val; omega
  show V m c main_v1 (((cfg0.win 1).blk t).view.emb (ix2 r k)) = _
  rw [e]
  exact Entry.entry_v1 m c _ _

theorem blk2 (t : Fin cfg0.N) (i : Fin 40) (g : Fin 768) :
    (iblk m c 2 t (ix2 i g) : EReal) = Cert.Gru.wcomb (argsAt m c) i g := by
  obtain ⟨-, -, -, -, e0, e1, -⟩ := idx_facts t
  have e : ((cfg0.win 2).blk t).view.emb (ix2 i g) = ix2 i g := by
    funext a; apply Fin.ext
    match a with
    | ⟨0, _⟩ => show win0_2.index t (0 : Fin 2) * 40 + 1 * i.val = i.val; omega
    | ⟨1, _⟩ => show win0_2.index t (1 : Fin 2) * 768 + 1 * g.val = g.val; omega
  show V m c main_v10 (((cfg0.win 2).blk t).view.emb (ix2 i g)) = _
  rw [e]
  exact Entry.entry_v10 m c _ _

theorem blk3 (t : Fin cfg0.N) (g : Fin 768) :
    (iblk m c 3 t (ix2 0 g) : EReal) = Cert.Gru.bcomb (argsAt m c) g := by
  obtain ⟨-, -, -, -, -, -, e0, e1, -⟩ := idx_facts t
  have e : ((cfg0.win 3).blk t).view.emb (ix2 0 g) = ix2 0 g := by
    funext a; apply Fin.ext
    match a with
    | ⟨0, _⟩ => show win0_3.index t (0 : Fin 2) * 1 + 1 * 0 = 0; omega
    | ⟨1, _⟩ => show win0_3.index t (1 : Fin 2) * 768 + 1 * g.val = g.val; omega
  show V m c main_v11 (((cfg0.win 3).blk t).view.emb (ix2 0 g)) = _
  rw [e]
  exact Entry.entry_v11 m c _

theorem blk4 (t : Fin cfg0.N) (k : Fin 256) (g : Fin 768) :
    (iblk m c 4 t (ix2 k g) : EReal) = (argsAt m c).Whh (ix2 g k) := by
  obtain ⟨-, -, -, -, -, -, -, -, e0, e1, -⟩ := idx_facts t
  have e : ((cfg0.win 4).blk t).view.emb (ix2 k g) = ix2 k g := by
    funext a; apply Fin.ext
    match a with
    | ⟨0, _⟩ => show win0_4.index t (0 : Fin 2) * 256 + 1 * k.val = k.val; omega
    | ⟨1, _⟩ => show win0_4.index t (1 : Fin 2) * 768 + 1 * g.val = g.val; omega
  show V m c main_v13 (((cfg0.win 4).blk t).view.emb (ix2 k g)) = _
  rw [e]
  exact Entry.entry_v13 m c _ _

theorem blk5 (t : Fin cfg0.N) (g : Fin 768) :
    (iblk m c 5 t (ix2 0 g) : EReal) = (argsAt m c).bhh (ix1 g) := by
  obtain ⟨-, -, -, -, -, -, -, -, -, -, e0, e1, -⟩ := idx_facts t
  have e : ((cfg0.win 5).blk t).view.emb (ix2 0 g) = ix2 0 g := by
    funext a; apply Fin.ext
    match a with
    | ⟨0, _⟩ => show win0_5.index t (0 : Fin 2) * 1 + 1 * 0 = 0; omega
    | ⟨1, _⟩ => show win0_5.index t (1 : Fin 2) * 768 + 1 * g.val = g.val; omega
  show V m c main_v14 (((cfg0.win 5).blk t).view.emb (ix2 0 g)) = _
  rw [e]
  exact Entry.entry_v14 m c _

theorem blk6 (t : Fin cfg0.N) (k : Fin 256) :
    (iblk m c 6 t (ix2 k 0) : EReal) = (argsAt m c).Whd (ix2 0 k) := by
  obtain ⟨-, -, -, -, -, -, -, -, -, -, -, -, e0, e1, -⟩ := idx_facts t
  have e : ((cfg0.win 6).blk t).view.emb (ix2 k 0) = ix2 k 0 := by
    funext a; apply Fin.ext
    match a with
    | ⟨0, _⟩ => show win0_6.index t (0 : Fin 2) * 256 + 1 * k.val = k.val; omega
    | ⟨1, _⟩ => show win0_6.index t (1 : Fin 2) * 1 + 1 * 0 = 0; omega
  show V m c main_v16 (((cfg0.win 6).blk t).view.emb (ix2 k 0)) = _
  rw [e]
  exact Entry.entry_v16 m c _

theorem blk7 (t : Fin cfg0.N) :
    (iblk m c 7 t (ix2 0 0) : EReal) = (argsAt m c).bhd (ix1 0) := by
  obtain ⟨-, -, -, -, -, -, -, -, -, -, -, -, -, -, e0, e1, -⟩ := idx_facts t
  have e : ((cfg0.win 7).blk t).view.emb (ix2 0 0) = ix2 0 0 := by
    funext a; apply Fin.ext
    match a with
    | ⟨0, _⟩ => show win0_7.index t (0 : Fin 2) * 1 + 1 * 0 = 0; omega
    | ⟨1, _⟩ => show win0_7.index t (1 : Fin 2) * 1 + 1 * 0 = 0; omega
  show V m c main_v17 (((cfg0.win 7).blk t).view.emb (ix2 0 0)) = _
  rw [e]
  exact Entry.entry_v17 m c

/-- The hidden-state payload of point `t` at (r, j) is the specification's new hidden entry of batch row
    t·2048 + r, with the folded pre-activation. -/
theorem pay2_blk (t : Fin cfg0.N) (r : Fin 2048) (j : Fin 256) :
    (k0_pay2 (F := Ideal) (iblk m c 0 t) (iblk m c 2 t) (iblk m c 3 t) (iblk m c 1 t) (iblk m c 4 t) (iblk m c 5 t) (ix2 r j) : EReal)
      = Cert.Gru.hnew (argsAt m c) (Cert.Gru.giFolded (argsAt m c)) (row t r) j := by
  refine (Payload.pay2_apply (iblk m c 0 t) (iblk m c 2 t) (iblk m c 3 t) (iblk m c 1 t) (iblk m c 4 t) (iblk m c 5 t) r j).trans ?_
  simp only [blk0 m c t, blk1 m c t, blk2 m c t, blk3 m c t, blk4 m c t, blk5 m c t]
  rfl

/-! ## The hidden-state output -/

/-- What point `t` writes back to the hidden-state array is block `t` of `Hnew`. -/
theorem flushed9_eq (t : Fin cfg0.N) :
    (dats m 0 c).flushed 9 t = ((cfg0.win 9).blk t).view.read (Elt Ideal) (Hnew m c) := by
  show (cfg0.win 9).cut (grid0.coords t) ((dats m 0 c).after 9 t) = _
  rw [after0_9]
  unfold out0_9
  rw [View.canon_unit_zero hz]
  simp only [View.ld_unit_zero (S := S2048x40) hz, View.ld_unit_zero (S := S40x768) hz, View.ld_unit_zero (S := S1x768) hz,
    View.ld_unit_zero (S := S2048x256) hz, View.ld_unit_zero (S := S256x768) hz]
  obtain ⟨-, -, -, -, -, -, -, -, -, -, -, -, -, -, -, -, -, -, e0, e1⟩ := idx_facts t
  refine funext fun (y : S2048x256.Idx) => ?_
  obtain ⟨r, j, rfl⟩ : ∃ (r : Fin 2048) (j : Fin 256), y = ix2 r j := ⟨y 0, y 1, eq_ix2 y⟩
  have e : ((cfg0.win 9).blk t).view.emb (ix2 r j) = ix2 (row t r) j := by
    funext a; apply Fin.ext
    match a with
    | ⟨0, _⟩ => show win0_9.index t (0 : Fin 2) * 2048 + 1 * r.val = t.val * 2048 + r.val; omega
    | ⟨1, _⟩ => show win0_9.index t (1 : Fin 2) * 256 + 1 * j.val = j.val; omega
  show (k0_pay2 (F := Ideal) (iblk m c 0 t) (iblk m c 2 t) (iblk m c 3 t) (iblk m c 1 t) (iblk m c 4 t) (iblk m c 5 t) (ix2 r j) : EReal)
    = Hnew m c (((cfg0.win 9).blk t).view.emb (ix2 r j))
  rw [e]
  exact pay2_blk m c t r j

/-- An index of the hidden-state array is in point `t`'s block iff each coordinate is in the block's range. -/
theorem mem_blk9 (t : Fin cfg0.N) (i : S131072x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v18_1).slice (win0_9.rect t)).set ↔ _
  rw [View.set_slice_whole, Rect.mem_set_unit]
  exact Iff.rfl

/-- Every index of the hidden-state array is in the block of the point its batch row belongs to. -/
theorem cover9 (i : S131072x256.Idx) :
    ∃ t : Fin cfg0.N, (cfg0.win 9).flush t = true ∧ i ∈ ((cfg0.win 9).blk t).view.set := by
  have hi0 : (i 0).val < 131072 := (i 0).isLt
  have hi1 : (i 1).val < 256 := (i 1).isLt
  have hN : cfg0.N = 64 := N_0
  have ht : (i 0).val / 2048 < cfg0.N := by rw [hN]; omega
  refine ⟨⟨(i 0).val / 2048, ht⟩, flush0_9 _, ?_⟩
  rw [mem_blk9]
  obtain ⟨-, -, -, -, -, -, -, -, -, -, -, -, -, -, -, -, -, -, e0, e1⟩ := idx_facts ⟨(i 0).val / 2048, ht⟩
  intro a
  match a with
  | ⟨0, _⟩ =>
    show win0_9.index ⟨(i 0).val / 2048, ht⟩ (0 : Fin 2) * 2048 ≤ (i 0).val ∧ (i 0).val < win0_9.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_9.index ⟨(i 0).val / 2048, ht⟩ (1 : Fin 2) * 256 ≤ (i 1).val ∧ (i 1).val < win0_9.index ⟨(i 0).val / 2048, ht⟩ (1 : Fin 2) * 256 + 256
    rw [e1]
    omega

/-- The hidden-state array after the run. -/
theorem final9 : (dats m 0 c).arrAt 9 cfg0.N = Hnew m c :=
  (dats m 0 c).arrAt_eq_of_cover 9 (Hnew m c) (fun t _ => flushed9_eq m c t) (cover9)

/-! ## The head's output -/

/-- What point `t` writes back to the head's array is block `t` of `Pred`. -/
theorem flushed8_eq (t : Fin cfg0.N) :
    (dats m 0 c).flushed 8 t = ((cfg0.win 8).blk t).view.read (Elt Ideal) (Pred m c) := by
  show (cfg0.win 8).cut (grid0.coords t) ((dats m 0 c).after 8 t) = _
  rw [after0_8]
  unfold out0_8
  rw [View.canon_unit_zero hz]
  simp only [View.ld_unit_zero (S := S2048x40) hz, View.ld_unit_zero (S := S40x768) hz, View.ld_unit_zero (S := S1x768) hz,
    View.ld_unit_zero (S := S2048x256) hz, View.ld_unit_zero (S := S256x768) hz, View.ld_unit_zero (S := S256x1) hz,
    View.ld_unit_zero (S := S1x1) hz]
  obtain ⟨-, -, -, -, -, -, -, -, -, -, -, -, -, -, -, -, e0, e1, -⟩ := idx_facts t
  refine funext fun (y : S2048x1.Idx) => ?_
  obtain ⟨r, q, rfl⟩ : ∃ (r : Fin 2048) (q : Fin 1), y = ix2 r q := ⟨y 0, y 1, eq_ix2 y⟩
  obtain rfl : q = 0 := Subsingleton.elim _ _
  have e : ((cfg0.win 8).blk t).view.emb (ix2 r 0) = ix2 (row t r) 0 := by
    funext a; apply Fin.ext
    match a with
    | ⟨0, _⟩ => show win0_8.index t (0 : Fin 2) * 2048 + 1 * r.val = t.val * 2048 + r.val; omega
    | ⟨1, _⟩ => show win0_8.index t (1 : Fin 2) * 1 + 1 * 0 = 0; omega
  show (k0_pay1 (F := Ideal) (k0_pay2 (iblk m c 0 t) (iblk m c 2 t) (iblk m c 3 t) (iblk m c 1 t) (iblk m c 4 t) (iblk m c 5 t))
      (k0_pay3 (iblk m c 6 t)) (k0_pay4 (iblk m c 7 t)) (ix2 r 0) : EReal)
    = Pred m c (((cfg0.win 8).blk t).view.emb (ix2 r 0))
  rw [e]
  refine (Payload.pay1_apply (k0_pay2 (iblk m c 0 t) (iblk m c 2 t) (iblk m c 3 t) (iblk m c 1 t) (iblk m c 4 t) (iblk m c 5 t))
      (k0_pay3 (iblk m c 6 t)) (k0_pay4 (iblk m c 7 t)) r 0).trans ?_
  rw [Payload.pay3_eq, Payload.pay4_eq]
  simp only [pay2_blk m c t, blk6 m c t, blk7 m c t]
  rfl

/-- An index of the head's array is in point `t`'s block iff each coordinate is in the block's range. -/
theorem mem_blk8 (t : Fin cfg0.N) (i : S131072x1.Idx) :
    i ∈ ((cfg0.win 8).blk t).view.set ↔ ∀ a : Fin 2, win0_8.index t a * S2048x1.size a ≤ (i a).val ∧ (i a).val < win0_8.index t a * S2048x1.size a + S2048x1.size a := by
  show i ∈ ((View.whole main_v18_0).slice (win0_8.rect t)).set ↔ _
  rw [View.set_slice_whole, Rect.mem_set_unit]
  exact Iff.rfl

/-- Every index of the head's array is in the block of the point its batch row belongs to. -/
theorem cover8 (i : S131072x1.Idx) :
    ∃ t : Fin cfg0.N, (cfg0.win 8).flush t = true ∧ i ∈ ((cfg0.win 8).blk t).view.set := by
  have hi0 : (i 0).val < 131072 := (i 0).isLt
  have hi1 : (i 1).val < 1 := (i 1).isLt
  have hN : cfg0.N = 64 := N_0
  have ht : (i 0).val / 2048 < cfg0.N := by rw [hN]; omega
  refine ⟨⟨(i 0).val / 2048, ht⟩, flush0_8 _, ?_⟩
  rw [mem_blk8]
  obtain ⟨-, -, -, -, -, -, -, -, -, -, -, -, -, -, -, -, e0, e1, -⟩ := idx_facts ⟨(i 0).val / 2048, ht⟩
  intro a
  match a with
  | ⟨0, _⟩ =>
    show win0_8.index ⟨(i 0).val / 2048, ht⟩ (0 : Fin 2) * 2048 ≤ (i 0).val ∧ (i 0).val < win0_8.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_8.index ⟨(i 0).val / 2048, ht⟩ (1 : Fin 2) * 1 ≤ (i 1).val ∧ (i 1).val < win0_8.index ⟨(i 0).val / 2048, ht⟩ (1 : Fin 2) * 1 + 1
    rw [e1]
    omega

/-- The head's array after the run. -/
theorem final8 : (dats m 0 c).arrAt 8 cfg0.N = Pred m c :=
  (dats m 0 c).arrAt_eq_of_cover 8 (Pred m c) (fun t _ => flushed8_eq m c t) (cover8)

end Cert.KernelIdeal.Blocks

end
-- ==== Proof.KerRun.lean ====
/-
  The idealized kernel program's run, with its two results named.

  After the region, the program broadcasts each of the region's two output arrays to the result's shape (a unit
  axis is inserted). The region's arrays end at the whole-array functions of the blocks module, so each result
  is that broadcast of the new hidden state, respectively of the head's output; the arguments end unchanged.
-/
import proofs.«102828_j89644557402351_2_alg».proof.Proof.KerBlocks
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The head's result: the head's array with a unit axis inserted. -/
def predOut (c : Dev nD) : S131072x1x1.Idx → EReal :=
  broadcastInDim S131072x1x1 ![0, 2] bcast_S131072x1_S131072x1x1_0_2 (Blocks.Pred m c)

/-- The hidden-state result: the hidden-state array with a leading unit axis. -/
def hnewOut (c : Dev nD) : S1x131072x256.Idx → EReal :=
  broadcastInDim S1x131072x256 ![1, 2] bcast_S131072x256_S1x131072x256_1_2 (Blocks.Hnew m c)

theorem tail19 (c : Dev nD) :
    Pipeline.afterTail₀ cfgs (dats m) 0 (V0 m) [hostOps1] c main_v19 = predOut m c := by
  unfold Pipeline.afterTail₀
  show StableHlo.after hostOps1 _ (Proc.devRef .tc main_v19) = _
  after_results
  exact congrArg (broadcastInDim S131072x1x1 ![0, 2] bcast_S131072x1_S131072x1x1_0_2)
    ((Pipeline.withArrays_arr spec0 launch0.win.arr_inj c (V0 m c) (fun w => (dats m 0 c).arrAt w cfg0.N) 8).trans (Blocks.final8 m c))

theorem tail20 (c : Dev nD) :
    Pipeline.afterTail₀ cfgs (dats m) 0 (V0 m) [hostOps1] c main_v20 = hnewOut m c := by
  unfold Pipeline.afterTail₀
  show StableHlo.after hostOps1 _ (Proc.devRef .tc main_v20) = _
  after_results
  exact congrArg (broadcastInDim S1x131072x256 ![1, 2] bcast_S131072x256_S1x131072x256_1_2)
    ((Pipeline.withArrays_arr spec0 launch0.win.arr_inj c (V0 m c) (fun w => (dats m 0 c).arrAt w cfg0.N) 9).trans (Blocks.final9 m c))

/-- Every weakly fair execution terminates with the two results at their functions of the arguments and the
    arguments unchanged. -/
theorem run : θ_run defs (onTc (τ := τ) (main (F := Ideal))) ⟨m, fun _ => 0, ρ⟩ fun r => ∀ c : Dev nD,
      r.2.mem ((c.tc : Thread nD τ).loc main_v19) = predOut m c
      ∧ r.2.mem ((c.tc : Thread nD τ).loc main_v20) = hnewOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v19 (Pipeline.mem_restRefs_of main_v19 (by decide) (by decide))).trans (tail19 m c),
      ((h c).2 main_v20 (Pipeline.mem_restRefs_of main_v20 (by decide) (by decide))).trans (tail20 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Run

end
-- ==== Proof.GruAlgebra.lean ====
/-
  Folding the input projection into the gate weights does not change the input pre-activation, when every
  entry of the arguments is a real number.

  Over ℝ, for a row x, a projection W with bias bp, and one column V of the gate weights with bias c:
      Σ_i x_i · (Σ_p W_{p,i} · V_p) + (Σ_p bp_p · V_p + c)  =  Σ_p (Σ_i x_i · W_{p,i} + bp_p) · V_p + c,
  by distributing each V_p over its bracket and exchanging the two finite sums. On the extended reals the
  same equation holds for real entries because the coercion ℝ → EReal commutes with products, sums of two
  and finite sums; it fails at infinite entries (distributivity does), which is why finiteness is assumed.
-/
import proofs.«102828_j89644557402351_2_alg».proof.Proof.GruSpec

noncomputable section

namespace Cert.Gru

open Idealize.ShloMosaic Idealize.ShloMosaic.ValueIdx

/-- The coercion of a finite sum of reals is the sum of the coercions. -/
theorem coe_sum {ι : Type*} (s : Finset ι) (f : ι → ℝ) :
    ∑ i ∈ s, ((f i : ℝ) : EReal) = ((∑ i ∈ s, f i : ℝ) : EReal) := by
  classical
  refine Finset.induction_on s (by simp) (fun a s ha ih => ?_)
  rw [Finset.sum_insert ha, Finset.sum_insert ha, EReal.coe_add, ih]

/-- The identity over the reals. -/
theorem fold_real {ι κ : Type*} [Fintype ι] [Fintype κ] (x : ι → ℝ) (W : κ → ι → ℝ) (bp V : κ → ℝ) (c : ℝ) :
    (∑ i, x i * (∑ p, W p i * V p)) + ((∑ p, bp p * V p) + c)
      = (∑ p, ((∑ i, x i * W p i) + bp p) * V p) + c := by
  have h1 : ∀ p, ((∑ i, x i * W p i) + bp p) * V p = (∑ i, x i * (W p i * V p)) + bp p * V p := by
    intro p
    rw [add_mul, Finset.sum_mul]
    congr 1
    exact Finset.sum_congr rfl fun i _ => by ring
  simp only [h1, Finset.sum_add_distrib, Finset.mul_sum]
  rw [Finset.sum_comm]
  ring

/-- The identity on the extended reals, for real entries. -/
theorem fold_ereal {ι κ : Type*} [Fintype ι] [Fintype κ] (x : ι → ℝ) (W : κ → ι → ℝ) (bp V : κ → ℝ) (c : ℝ) :
    (∑ i, (x i : EReal) * (∑ p, (W p i : EReal) * (V p : EReal))) + ((∑ p, (bp p : EReal) * (V p : EReal)) + (c : EReal))
      = (∑ p, ((∑ i, (x i : EReal) * (W p i : EReal)) + (bp p : EReal)) * (V p : EReal)) + (c : EReal) := by
  simp only [← EReal.coe_mul, coe_sum, ← EReal.coe_add]
  exact congrArg _ (fold_real x W bp V c)

/-- The folded input pre-activation is the unfolded one, entry by entry, for real arguments. -/
theorem giFolded_apply_eq (A : Args) (hA : A.Finite) (b : Fin 131072) (g : Fin 768) :
    giFolded A b g = giUnfolded A b g := by
  choose x hx using hA.x
  choose Wp hWp using hA.Wp
  choose bp hbp using hA.bp
  choose Wih hWih using hA.Wih
  choose bih hbih using hA.bih
  unfold giFolded giUnfolded wcomb bcomb proj
  simp only [hx, hWp, hbp, hWih, hbih]
  exact fold_ereal (fun i => x (ix3 b 0 i)) (fun p i => Wp (ix2 p i)) (fun p => bp (ix1 p))
    (fun p => Wih (ix2 g p)) (bih (ix1 g))

/-- As functions. -/
theorem giFolded_eq (A : Args) (hA : A.Finite) : giFolded A = giUnfolded A :=
  funext fun b => funext fun g => giFolded_apply_eq A hA b g

end Cert.Gru

end
-- ==== Proof.Bridge.lean ====
/-
  The bridge: the reference's stages, applied to the kernel program's argument arrays, are the kernel's final
  arrays — when every argument entry is a real number.

  Entry by entry the reference's new hidden state is the specification's with the UNFOLDED input pre-activation,
  the kernel's final hidden-state array the specification's with the FOLDED one; the two pre-activations agree
  for real arguments (distributivity and an exchange of two finite sums). The head is the same sum over the new
  hidden row on both sides. The two programs then apply the same unit-axis broadcasts.
-/
import proofs.«102828_j89644557402351_2_alg».proof.Proof.RefRead
import proofs.«102828_j89644557402351_2_alg».proof.Proof.KerRun
import proofs.«102828_j89644557402351_2_alg».proof.Proof.GruAlgebra

noncomputable section

namespace Cert.Bridge

open Idealize.ShloMosaic Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

/-- The reference's new hidden state of the kernel's arguments is the kernel's final hidden-state array. -/
theorem hnew_eq (hfin : (Cert.KernelIdeal.argsAt m c).Finite) :
    Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Blocks.Hnew m c := by
  refine funext fun (i : (⟨2, ![131072, 256]⟩ : Shape).Idx) => ?_
  obtain ⟨b, j, rfl⟩ : ∃ (b : Fin 131072) (j : Fin 256), i = ix2 b j := ⟨i 0, i 1, eq_ix2 i⟩
  rw [Cert.ReferenceIdeal.RefRead.hnew_read _ _ _ _ _ _ _ _ (m ((c.tc : Thread Cert.KernelIdeal.nD Cert.KernelIdeal.τ).loc Cert.KernelIdeal.main_arg8)) (m ((c.tc : Thread Cert.KernelIdeal.nD Cert.KernelIdeal.τ).loc Cert.KernelIdeal.main_arg9)) b j]
  unfold Cert.KernelIdeal.Blocks.Hnew
  rw [Cert.Gru.giFolded_eq _ hfin]
  rfl

/-- The reference's head output of the kernel's arguments is the kernel's final head array. -/
theorem pred_eq (hfin : (Cert.KernelIdeal.argsAt m c).Finite) :
    Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Blocks.Pred m c := by
  refine funext fun (i : (⟨2, ![131072, 1]⟩ : Shape).Idx) => ?_
  obtain ⟨b, q, rfl⟩ : ∃ (b : Fin 131072) (q : Fin 1), i = ix2 b q := ⟨i 0, i 1, eq_ix2 i⟩
  obtain rfl : q = 0 := Subsingleton.elim _ _
  rw [Cert.ReferenceIdeal.RefRead.pred_read _ _ _ _ _ _ _ _ _ _ b]
  unfold Cert.KernelIdeal.Blocks.Pred
  rw [Cert.Gru.giFolded_eq _ hfin]
  rfl

/-- The reference's first result of the kernel's arguments is the kernel's first result. -/
theorem out0_eq (hfin : (Cert.KernelIdeal.argsAt m c).Finite) :
    Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Run.predOut m c := by
  unfold Cert.ReferenceIdeal.Read.val_main_v46 Cert.KernelIdeal.Run.predOut
  rw [pred_eq m c hfin]

/-- The reference's second result of the kernel's arguments is the kernel's second result. -/
theorem out1_eq (hfin : (Cert.KernelIdeal.argsAt m c).Finite) :
    Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Run.hnewOut m c := by
  unfold Cert.ReferenceIdeal.Read.val_main_v47 Cert.KernelIdeal.Run.hnewOut
  rw [hnew_eq m c hfin]

end Cert.Bridge

end
-- ==== Proof.lean ====
/-
  One GRU step over 131072 independent batch rows, with an input projection in front and a one-column head
  behind: the kernel against its reference, over the extended reals.

  Both programs compute, for each batch row, hidden pre-activations gh = h · Whhᵀ + bhh, input pre-activations
  gi, the gates r = σ(gi + gh) and z = σ(gi + gh) on the first two thirds of the 768 gate columns, the candidate
  n = tanh(gi + r · gh) on the last third, the new hidden row h' = (1 − z) · n + z · h, and the head h' · Whdᵀ + bhd.
  They differ in gi only: the reference projects the input first, (x · Wpᵀ + bp) · Wihᵀ + bih, while the kernel
  multiplies x by the combined weight Wpᵀ · Wihᵀ and adds the combined bias bp · Wihᵀ + bih, both combined once
  outside the grid. Over real numbers these agree by distributivity and an exchange of two finite sums; the
  precondition (every input finite) makes every entry real, and that is the only place it is used. The kernel's
  logistic is, on the extended reals, literally 1 / (1 + exp(−s)), which is how the reference spells it; the
  changes of float format are the identity there, and a matrix product into a zero accumulator is the plain sum.

  The kernel walks the batch in 64 blocks of 2048 rows; each output block depends on its own rows only, and the
  blocks tile the output arrays. After the region both programs insert the same unit axes into the two results.

  The three frames are the generated ones (the reference's is its generated run with the results dropped); the
  idealization rewrote nothing, so there is nothing to preserve beyond `True`.
-/
import proofs.«102828_j89644557402351_2_alg».proof.Defs
import proofs.«102828_j89644557402351_2_alg».proof.Proof.Gen.Kernel
import proofs.«102828_j89644557402351_2_alg».proof.Proof.Gen.Kernel.Skeleton
import proofs.«102828_j89644557402351_2_alg».proof.Proof.Gen.Kernel.Launch
import proofs.«102828_j89644557402351_2_alg».proof.Proof.Gen.Kernel.Points
import proofs.«102828_j89644557402351_2_alg».proof.Proof.Gen.Kernel.Frame
import proofs.«102828_j89644557402351_2_alg».proof.Proof.Gen.KernelIdeal
import proofs.«102828_j89644557402351_2_alg».proof.Proof.Gen.KernelIdeal.Skeleton
import proofs.«102828_j89644557402351_2_alg».proof.Proof.Gen.KernelIdeal.Launch
import proofs.«102828_j89644557402351_2_alg».proof.Proof.Gen.KernelIdeal.Points
import proofs.«102828_j89644557402351_2_alg».proof.Proof.Gen.KernelIdeal.Frame
import proofs.«102828_j89644557402351_2_alg».proof.Proof.Gen.ReferenceIdeal
import proofs.«102828_j89644557402351_2_alg».proof.Proof.Gen.Pre_finite_inputs
import proofs.«102828_j89644557402351_2_alg».proof.Proof.Gen.ReferenceIdeal.Run
import proofs.«102828_j89644557402351_2_alg».proof.Proof.Gen.ReferenceIdeal.Read
import proofs.«102828_j89644557402351_2_alg».proof.Proof.FiniteArgs
import proofs.«102828_j89644557402351_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the same two results: the
    kernel's run names them; the reference's run ends at its stages of ITS arguments, which are the kernel's
    arguments, and those stages are the kernel's results once every entry is real. -/
theorem algebraic : Cert.algebraic_KernelIdeal_ReferenceIdeal := by
  intro m ρ m' ρ' hpre hagree
  refine ⟨fun c => Cert.KernelIdeal.Run.predOut m c, fun c => Cert.KernelIdeal.Run.hnewOut m c,
    Cert.KernelIdeal.Run.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v46_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact Cert.Bridge.out0_eq m c (Cert.KernelIdeal.FiniteArgs.finite_of_pre m hpre c)
  · rw [Cert.ReferenceIdeal.Read.val_main_v47_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1]
    exact Cert.Bridge.out1_eq m c (Cert.KernelIdeal.FiniteArgs.finite_of_pre m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
